-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S32768x64 : Shape := ⟨2, ![32768, 64]⟩
abbrev S32768 : Shape := ⟨1, ![32768]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S8192x64 .f32) (main_arg1 : FVec F S32768x64 .f32) (main_arg2 : FVec F S32768 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  main_v13
-- ==== Kernel.lean ====
abbrev S8192x64 : Shape := ⟨2, ![8192, 64]⟩
abbrev S32768x64 : Shape := ⟨2, ![32768, 64]⟩
abbrev S32768 : Shape := ⟨1, ![32768]⟩
abbrev S_ : Shape := ⟨0, ![]⟩
abbrev S8192x1 : Shape := ⟨2, ![8192, 1]⟩
abbrev S1024x64 : Shape := ⟨2, ![1024, 64]⟩
abbrev S2048x64 : Shape := ⟨2, ![2048, 64]⟩
abbrev S2048 : Shape := ⟨1, ![2048]⟩
abbrev S1024x1 : Shape := ⟨2, ![1024, 1]⟩
abbrev S1024x2048 : Shape := ⟨2, ![1024, 2048]⟩
abbrev S1x2048 : Shape := ⟨2, ![1, 2048]⟩
abbrev S1024 : Shape := ⟨1, ![1024]⟩
abbrev S8192 : Shape := ⟨1, ![8192]⟩

abbrev nBuf : Space → Nat
  | .hbm => 15
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S32768x64, .f32⟩
  | .hbm, ⟨2, _⟩ => ⟨S32768, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S2048x64, .f32⟩
  | .local _ .vmem, ⟨4, _⟩ => ⟨S2048, .f32⟩
  | .local _ .vmem, ⟨5, _⟩ => ⟨S2048, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S32768x64_S32768_d1 : S32768x64.ReducesTo [1] S32768
  h_S_ : 0 < S_.numel
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  inb_S2048_S2048_0 : ∀ a, (![0] : Fin 1 → Nat) a + S2048.size a ≤ S2048.size a
  h_S2048 : 0 < S2048.numel
  shapeCasts_S2048_S2048 : S2048.ShapeCasts S2048
  bitsLt_bf16_f32 : FTy.bits .bf16 < FTy.bits .f32
  shapeCasts_S2048_S1x2048 : S2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x64_S1024 : S1024x64.Reduces [1] S1024
  reducesTo_S32768_S_d0 : S32768.ReducesTo [0] S_
  shapeCasts_S8192x1_S8192 : S8192x1.ShapeCasts S8192
  bcast_S_S8192 : S_.BroadcastsInDim S8192 (![] : Fin 0 → Fin S8192.rank)
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S32768x64.size a
  hwx0_1 : ∀ i : grid0.Coords, EltTy.bits .f32 = 32 ∨ (Rect.block (s := S32768x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S32768.size a
  hwx0_2 : ∀ i : grid0.Coords, EltTy.bits .f32 = 32 ∨ (Rect.block (s := S32768) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8192x64 : Shape := ⟨2, ![8192, 64]⟩
abbrev S32768x64 : Shape := ⟨2, ![32768, 64]⟩
abbrev S32768 : Shape := ⟨1, ![32768]⟩
abbrev S_ : Shape := ⟨0, ![]⟩
abbrev S8192 : Shape := ⟨1, ![8192]⟩
abbrev S8192x1 : Shape := ⟨2, ![8192, 1]⟩
abbrev S1x32768 : Shape := ⟨2, ![1, 32768]⟩
abbrev S8192x32768 : Shape := ⟨2, ![8192, 32768]⟩

abbrev nBuf : Space → Nat
  | .hbm => 30
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S32768x64, .f32⟩
  | .hbm, ⟨2, _⟩ => ⟨S32768, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S1x32768, .f32⟩
  | .hbm, ⟨11, _⟩ => ⟨S8192x32768, .f32⟩
  | .hbm, ⟨12, _⟩ => ⟨S8192x32768, .f32⟩
  | .hbm, ⟨13, _⟩ => ⟨S8192x32768, .f32⟩
  | .hbm, ⟨14, _⟩ => ⟨S8192x32768, .f32⟩
  | .hbm, ⟨15, _⟩ => ⟨S_, .f32⟩
  | .hbm, ⟨16, _⟩ => ⟨S8192x32768, .f32⟩
  | .hbm, ⟨17, _⟩ => ⟨S8192x32768, .f32⟩
  | .hbm, ⟨18, _⟩ => ⟨S8192x32768, .f32⟩
  | .hbm, ⟨19, _⟩ => ⟨S1x32768, .f32⟩
  | .hbm, ⟨20, _⟩ => ⟨S8192x32768, .f32⟩
  | .hbm, ⟨21, _⟩ => ⟨S8192x32768, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  reducesTo_S32768x64_S32768_d1 : S32768x64.ReducesTo [1] S32768
  bcast_S32768_S1x32768_1 : S32768.BroadcastsInDim S1x32768 (![1] : Fin 1 → Fin S1x32768.rank)
  bcast_S8192x1_S8192x32768_0_1 : S8192x1.BroadcastsInDim S8192x32768 (![0, 1] : Fin 2 → Fin S8192x32768.rank)
  bcast_S1x32768_S8192x32768_0_1 : S1x32768.BroadcastsInDim S8192x32768 (![0, 1] : Fin 2 → Fin S8192x32768.rank)
  bcast_S_S8192x32768 : S_.BroadcastsInDim S8192x32768 (![] : Fin 0 → Fin S8192x32768.rank)
  reducesTo_S8192x32768_S8192_d1 : S8192x32768.ReducesTo [1] S8192
  reducesTo_S32768_S_d0 : S32768.ReducesTo [0] S_
  bcast_S_S8192 : S_.BroadcastsInDim S8192 (![] : Fin 0 → Fin S8192.rank)
  dot_S8192x64_S32768x64_S8192x32768_1_1_0_0_n_n_wf : DotDims.WF S8192x64 S32768x64 S8192x32768 [1] [1] [0] [0] [] []

variable [Facts₀]

def dot_S8192x64_S32768x64_S8192x32768_1_1_0_0_n_n : DotDims S8192x64 S32768x64 S8192x32768 where
  lhsContracting := [1]
  rhsContracting := [1]
  lhsNonContracting := [0]
  rhsNonContracting := [0]
  lhsBatch := []
  rhsBatch := []
  wf := dot_S8192x64_S32768x64_S8192x32768_1_1_0_0_n_n_wf

class Facts : Prop extends Facts₀ where

variable [Facts]
-- ==== Proof.Kernel.Cases.lean ====
/-
  The grid of the call has 8 × 16 points; point `t` has row tile `t / 16` and target tile `j = t % 16`.
  The body branches three times on `j`: `j = 0` (the running minimum is set to the tile's minimum),
  `j > 0` (it is lowered by the tile's minimum), `j = 15` (the row's squared norm is added and the
  result stored into the output block).  This module decides each condition over the 128 points in
  closed form, says where the output block is idle and where it is written back, and names the staging
  and scratch buffers the body is called with.
-/
import proofs.«127365_j48215302865480_2_alg».proof.Proof.Gen.Kernel.Frame
import proofs.«127365_j48215302865480_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- `j = 0`, as the body computes it from the point's second coordinate. -/
abbrev isFirst (i : grid0.Coords) : Prop :=
  (Scalar.cmpi .ne (Scalar.extui (Scalar.cmpi .eq (BitVec.ofNat 32 (i 1).val) 0#32)) 0#32) = 1#1
/-- `j > 0` (a signed comparison of the coordinate's word with zero). -/
abbrev isLater (i : grid0.Coords) : Prop :=
  (Scalar.cmpi .ne (Scalar.extui (Scalar.cmpi .sgt (BitVec.ofNat 32 (i 1).val) 0#32)) 0#32) = 1#1
/-- `j = 15`, the last target tile. -/
abbrev isLast (i : grid0.Coords) : Prop := k0_cond3 i = 1#1

theorem isFirst_iff : ∀ t : Fin cfg0.N, isFirst (grid0.coords t) ↔ t.val % 16 = 0 :=
  (by decide +kernel : ∀ t : Fin grid0.N, isFirst (grid0.coords t) ↔ t.val % 16 = 0)
theorem isLater_iff : ∀ t : Fin cfg0.N, isLater (grid0.coords t) ↔ t.val % 16 ≠ 0 :=
  (by decide +kernel : ∀ t : Fin grid0.N, isLater (grid0.coords t) ↔ t.val % 16 ≠ 0)
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last target tile nothing is stored into the output block: the window is idle there, -/
theorem idle3 : ∀ t : Fin cfg0.N, ¬isLast (grid0.coords t) → cfg0.idle 3 (grid0.coords t) = true := by decide +kernel
/-- and its block is not written back there. -/
theorem noFlush3 : ∀ t : Fin cfg0.N, ¬isLast (grid0.coords t) → (cfg0.win 3).flush t = false := by decide +kernel
/-- At the last target tile the output block is stored. -/
theorem live3 : ∀ t : Fin cfg0.N, isLast (grid0.coords t) → cfg0.idle 3 (grid0.coords t) = false := by decide +kernel

/-! ## The buffers the body is called with -/

abbrev ms0 (t : Fin cfg0.N) : Memref sig .tc .vmem S1024x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
/-- The scratch that carries the running minimum from one target tile to the next. -/
abbrev scr : Memref sig .tc .vmem S1024x1 .f32 := Memref.whole cc0_scratch0
/-- A view through which the contents of the output block and of the scratch are stated. -/
abbrev VO : View sig .tc .vmem S1024x1 .f32 := (Memref.whole cc0_stg3_0 : Memref sig .tc .vmem S1024x1 .f32).view
abbrev VS : View sig .tc .vmem S1024x1 .f32 := scr.view

/-- What the region lends the body besides the windows: the scratch at some contents, and the generator register. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.Kernel.Body

end
-- ==== Proof.Kernel.StepFirst.lean ====
/-
  The body at a point of the FIRST target tile (j = 0): it loads the three input blocks, loads the
  scratch (whatever it holds), and stores the tile's row minima into the scratch.  Nothing else is
  touched.  The run is symbolic; what the scratch ends with is the one piece the store wrote.
-/
import proofs.«127365_j48215302865480_2_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the scratch at anything — the body runs to its end and
    leaves the inputs as they were and the scratch with the pieces `LS` written. -/
noncomputable def stepFirst (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : isFirst i) (h2 : ¬isLater i) (h3 : ¬isLast i)
    (x0 : Vec F S1024x64 .f32) (x1 : Vec F S2048x64 .f32) (x2 : Vec F S2048 .f32) :
    { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg6.view.loc (c : Thread nD τ) ↦[arg6.view.set]{fullShare} arg6.view.writes (Elt F) f LS)) -∗ K ⟨⟩))
          ⊢ wp frame (wpE (defs₀ (F := F)) Variants.none c none) E (cc0__sdot_min_kernel i arg2 harg2 arg3 harg3 arg4 harg4 arg5 harg5 arg6 harg6) K } := by
  refine ⟨?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.Kernel.StepLater.lean ====
/-
  The body at a point of a LATER target tile that is not the last (0 < j < 15): it loads the three
  input blocks, loads the scratch — the running minimum the point before left —, and stores back the
  smaller of it and the tile's row minima.  The output block is not touched.
-/
import proofs.«127365_j48215302865480_2_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the scratch at the running minimum `xs` — the body runs to
    its end and leaves the inputs as they were and the scratch with the pieces `LS` written. -/
noncomputable def stepLater (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : ¬isFirst i) (h2 : isLater i) (h3 : ¬isLast i)
    (x0 : Vec F S1024x64 .f32) (x1 : Vec F S2048x64 .f32) (x2 : Vec F S2048 .f32) (xs : Vec F S1024x1 .f32) :
    { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg6.view.loc (c : Thread nD τ) ↦[arg6.view.set]{fullShare} arg6.view.writes (Elt F) f LS)) -∗ K ⟨⟩))
          ⊢ wp frame (wpE (defs₀ (F := F)) Variants.none c none) E (cc0__sdot_min_kernel i arg2 harg2 arg3 harg3 arg4 harg4 arg5 harg5 arg6 harg6) K } := by
  refine ⟨?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.Kernel.StepLast.lean ====
/-
  The body at a point of the LAST target tile (j = 15): as at any later tile it lowers the scratch by the
  tile's row minima; then it loads the scratch back, adds the rows' squared norms, loads the output
  block (whatever it holds) and stores the sum into it.
-/
import proofs.«127365_j48215302865480_2_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the scratch at the running minimum `xs`, the output block at
    anything — the body runs to its end and leaves the inputs as they were, the output block with the pieces `LO`
    written and the scratch with the pieces `LS` written. -/
noncomputable def stepLast (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : ¬isFirst i) (h2 : isLater i) (h3 : isLast i)
    (x0 : Vec F S1024x64 .f32) (x1 : Vec F S2048x64 .f32) (x2 : Vec F S2048 .f32) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__sdot_min_kernel i arg2 harg2 arg3 harg3 arg4 harg4 arg5 harg5 arg6 harg6) K } := by
  refine ⟨?_, ?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Body

end
-- ==== Proof.Kernel.Leaves.lean ====
/-
  What each case of the body leaves, named.  Every store of the body writes a whole 1024 × 1 block, so the
  pieces a case wrote cover the buffer, and what the buffer then holds is the last store's value:
  at the first target tile the tile's row minima; at a later tile the smaller of the running minimum and the
  tile's row minima; at the last tile, in the output block, that new running minimum plus the rows' squared
  norms.  A whole-block load of a whole buffer reads the buffer's contents.
-/
import proofs.«127365_j48215302865480_2_alg».proof.Proof.Kernel.StepFirst
import proofs.«127365_j48215302865480_2_alg».proof.Proof.Kernel.StepLater
import proofs.«127365_j48215302865480_2_alg».proof.Proof.Kernel.StepLast
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of the body starts at its block's origin. -/
theorem origin2 : (![0, 0] : Fin 2 → Nat) = fun _ => 0 := by
  funext a; fin_cases a <;> rfl
theorem origin1 : (![0] : Fin 1 → Nat) = fun _ => 0 := by
  funext a; fin_cases a; rfl

section First
variable (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : isFirst i) (h2 : ¬isLater i) (h3 : ¬isLast i)
    (x0 : Vec F S1024x64 .f32) (x1 : Vec F S2048x64 .f32) (x2 : Vec F S2048 .f32)

theorem coverFirst (y : S1024x1.Idx) : ∃ pc ∈ (stepFirst c i arg2 harg2 arg3 harg3 arg4 harg4 arg5 harg5 arg6 harg6 h1 h2 h3 x0 x1 x2).1, y ∈ pc.1.set :=
  View.cover_of_tiledL (stepFirst c i arg2 harg2 arg3 harg3 arg4 harg4 arg5 harg5 arg6 harg6 h1 h2 h3 x0 x1 x2).1 S1024x1.size (by sl_kernel_rfl) y

/-- After the first target tile the scratch holds the tile's row minima. -/
theorem canonFirst : View.canon (stepFirst c i arg2 harg2 arg3 harg3 arg4 harg4 arg5 harg5 arg6 harg6 h1 h2 h3 x0 x1 x2).1 = k0_pay2 x0 x1 x2 := by
  unfold stepFirst; dsimp only
  rw [View.canon_unit_zero (S := S1024x1) (off := ![0, 0]) origin2]
  simp only [View.readAt_eq_ld, Memref.IsWhole.read_unread,
    View.ld_unit_zero (S := S1024x64) (off := ![0, 0]) origin2, View.ld_unit_zero (S := S2048x64) (off := ![0, 0]) origin2,
    View.ld_unit_zero (S := S2048) (off := ![0]) origin1, View.ld_unit_zero (S := S1024x1) (off := ![0, 0]) origin2]
end First

section Later
variable (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : ¬isFirst i) (h2 : isLater i) (h3 : ¬isLast i)
    (x0 : Vec F S1024x64 .f32) (x1 : Vec F S2048x64 .f32) (x2 : Vec F S2048 .f32) (xs : Vec F S1024x1 .f32)

theorem coverLater (y : S1024x1.Idx) : ∃ pc ∈ (stepLater c i arg2 harg2 arg3 harg3 arg4 harg4 arg5 harg5 arg6 harg6 h1 h2 h3 x0 x1 x2 xs).1, y ∈ pc.1.set :=
  View.cover_of_tiledL (stepLater c i arg2 harg2 arg3 harg3 arg4 harg4 arg5 harg5 arg6 harg6 h1 h2 h3 x0 x1 x2 xs).1 S1024x1.size (by sl_kernel_rfl) y

/-- After a later tile the scratch holds the smaller of the running minimum and the tile's row minima. -/
theorem canonLater : View.canon (stepLater c i arg2 harg2 arg3 harg3 arg4 harg4 arg5 harg5 arg6 harg6 h1 h2 h3 x0 x1 x2 xs).1 = k0_pay3 x0 x1 x2 xs := by
  unfold stepLater; dsimp only
  rw [View.canon_unit_zero (S := S1024x1) (off := ![0, 0]) origin2]
  simp only [View.readAt_eq_ld, Memref.IsWhole.read_unread,
    View.ld_unit_zero (S := S1024x64) (off := ![0, 0]) origin2, View.ld_unit_zero (S := S2048x64) (off := ![0, 0]) origin2,
    View.ld_unit_zero (S := S2048) (off := ![0]) origin1, View.ld_unit_zero (S := S1024x1) (off := ![0, 0]) origin2]
end Later

section Last
variable (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : ¬isFirst i) (h2 : isLater i) (h3 : isLast i)
    (x0 : Vec F S1024x64 .f32) (x1 : Vec F S2048x64 .f32) (x2 : Vec F S2048 .f32) (xs : Vec F S1024x1 .f32)

theorem coverLastO (y : S1024x1.Idx) : ∃ pc ∈ (stepLast c i arg2 harg2 arg3 harg3 arg4 harg4 arg5 harg5 arg6 harg6 h1 h2 h3 x0 x1 x2 xs).1, y ∈ pc.1.set :=
  View.cover_of_tiledL (stepLast c i arg2 harg2 arg3 harg3 arg4 harg4 arg5 harg5 arg6 harg6 h1 h2 h3 x0 x1 x2 xs).1 S1024x1.size (by sl_kernel_rfl) y
theorem coverLastS (y : S1024x1.Idx) : ∃ pc ∈ (stepLast c i arg2 harg2 arg3 harg3 arg4 harg4 arg5 harg5 arg6 harg6 h1 h2 h3 x0 x1 x2 xs).2.1, y ∈ pc.1.set :=
  View.cover_of_tiledL (stepLast c i arg2 harg2 arg3 harg3 arg4 harg4 arg5 harg5 arg6 harg6 h1 h2 h3 x0 x1 x2 xs).2.1 S1024x1.size (by sl_kernel_rfl) y

/-- At the last tile the scratch is lowered as at any later tile, -/
theorem canonLastS : View.canon (stepLast c i arg2 harg2 arg3 harg3 arg4 harg4 arg5 harg5 arg6 harg6 h1 h2 h3 x0 x1 x2 xs).2.1 = k0_pay3 x0 x1 x2 xs := by
  unfold stepLast; dsimp only
  sl_unfold_words
  rw [View.canon_unit_zero (S := S1024x1) (off := ![0, 0]) origin2]
  simp only [View.readAt_eq_ld, Memref.IsWhole.read_unread,
    View.ld_unit_zero (S := S1024x64) (off := ![0, 0]) origin2, View.ld_unit_zero (S := S2048x64) (off := ![0, 0]) origin2,
    View.ld_unit_zero (S := S2048) (off := ![0]) origin1, View.ld_unit_zero (S := S1024x1) (off := ![0, 0]) origin2]

/-- and the output block holds that new running minimum plus the rows' squared norms. -/
theorem canonLastO : View.canon (stepLast c i arg2 harg2 arg3 harg3 arg4 harg4 arg5 harg5 arg6 harg6 h1 h2 h3 x0 x1 x2 xs).1 = k0_pay4 x0 (k0_pay3 x0 x1 x2 xs) := by
  unfold stepLast; dsimp only
  sl_unfold_words
  rw [View.canon_unit_zero (S := S1024x1) (off := ![0, 0]) origin2]
  simp only [View.readAt_eq_ld, Memref.IsWhole.read_unread,
    View.ld_unit_zero (S := S1024x64) (off := ![0, 0]) origin2, View.ld_unit_zero (S := S2048x64) (off := ![0, 0]) origin2,
    View.ld_unit_zero (S := S2048) (off := ![0]) origin1, View.ld_unit_zero (S := S1024x1) (off := ![0, 0]) origin2]
  exact congrArg (k0_pay4 x0) (View.readCov_unit_zero (S := S1024x1) arg6.view (off := ![0, 0]) origin2 _ _)
end Last

end Cert.Kernel.Body

end
-- ==== Proof.Kernel.Data.lean ====
/-
  The call as a whole.  The scratch carries the running row minima from one target tile to the next:
  after point `t` it holds the tile's row minima if `t` is at the first target tile of its row tile, and
  otherwise the smaller of what point `t - 1` left and the tile's row minima (`scrAt`).  The output block a
  point stores — only the last target tile of a row tile does — is that running minimum plus the rows'
  squared norms (`outAt`).  With these as the proof data of the pipeline, the body's three cases discharge
  the obligation at every point, and the program runs: every execution ends, faults nowhere, and leaves each
  array of the call at what the data say.
-/
import proofs.«127365_j48215302865480_2_alg».proof.Proof.Kernel.Leaves

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running minimum, point by point -/

/-- What the scratch holds after the body at point `n`. -/
def scrAt (c : Dev nD) : (n : ℕ) → n < cfg0.N → Vec F S1024x1 .f32
  | 0, hn => k0_pay2 (iblk m c 0 ⟨0, hn⟩) (iblk m c 1 ⟨0, hn⟩) (iblk m c 2 ⟨0, hn⟩)
  | n + 1, hn =>
    if (n + 1) % 16 = 0 then k0_pay2 (iblk m c 0 ⟨n + 1, hn⟩) (iblk m c 1 ⟨n + 1, hn⟩) (iblk m c 2 ⟨n + 1, hn⟩)
    else k0_pay3 (iblk m c 0 ⟨n + 1, hn⟩) (iblk m c 1 ⟨n + 1, hn⟩) (iblk m c 2 ⟨n + 1, hn⟩) (scrAt c n (Nat.lt_of_succ_lt hn))

/-- At the first target tile of a row tile: the tile's row minima. -/
theorem scrAt_first (c : Dev nD) (t : Fin cfg0.N) (h : t.val % 16 = 0) :
    scrAt m c t.val t.isLt = k0_pay2 (iblk m c 0 t) (iblk m c 1 t) (iblk m c 2 t) := by
  obtain ⟨n, hn⟩ := t
  cases n with
  | zero => rfl
  | succ n => exact if_pos h

/-- At a later target tile: the smaller of what the point before left and the tile's row minima. -/
theorem scrAt_later (c : Dev nD) (t : Fin cfg0.N) (h : t.val % 16 ≠ 0) :
    scrAt m c t.val t.isLt = k0_pay3 (iblk m c 0 t) (iblk m c 1 t) (iblk m c 2 t) (scrAt m c (t.val - 1) (Nat.lt_of_le_of_lt (Nat.sub_le _ _) t.isLt)) := by
  obtain ⟨n, hn⟩ := t
  cases n with
  | zero => exact absurd (Nat.zero_mod _) h
  | succ n => exact if_neg h

/-- What the output block holds after the body at a point of the last target tile. -/
def outAt (c : Dev nD) (t : Fin cfg0.N) : Vec F S1024x1 .f32 := k0_pay4 (iblk m c 0 t) (scrAt m c t.val t.isLt)

/-! ## The invariant -/

/-- Before point `n`: at the start whatever the region lends; afterwards the scratch at what point `n - 1` left, and
    the generator register at some state. -/
def PhiS (c : Dev nD) : (n : ℕ) → n ≤ cfg0.N → sProp 𝕄
  | 0, _ => Pipeline.ΦA spec0 c
  | n + 1, hn => iprop(iprop(owns (c : Thread nD τ) scr fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scr fullShare (scrAt m c (n - 1) (by omega))) ∗ (∃ r, prngReg c r)) := by
  cases n with
  | zero => exact absurd rfl hz
  | succ n => rfl

/-! ## The proof data -/

/-- On core `c`: the arrays as the region finds them; after the body each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- An input's buffer is handed back at its block. -/
theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's target tile says which case it is in; the
    invariant hands the body the scratch (at anything before the very first point, else at what the point before left) and
    takes it back at this point's running minimum; away from the last target tile the output block is handed back as found,
    at the last it holds `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 128 := lt_of_lt_of_eq t.isLt (show cfg0.N = 128 from N_0)
  by_cases h0 : t.val % 16 = 0
  · have c1 : isFirst (grid0.coords t) := (isFirst_iff t).mpr h0
    have c2 : ¬isLater (grid0.coords t) := fun h => (isLater_iff t).mp h h0
    have c3 : ¬isLast (grid0.coords t) := fun h => by have := (isLast_iff t).mp h; omega
    rw [Dat.leavesExact_idle (dats m 0 c) 3 t (idle3 t c3) (noFlush3 t c3)]
    rw [scrAt_first m c t h0]
    by_cases hz : t.val = 0
    · rw [Phi_castSucc m c t, PhiS_zero m c _ _ hz, PhiA_eq]
      iintro ⟨⟨HS, Hg⟩, Ho, ⟨%d0, H0⟩, ⟨%d1, H1⟩, ⟨%d2, H2⟩, H3⟩
      iapply ((stepFirst c (grid0.coords t) (ms0 t) (hs0 t) (ms1 t) (hs1 t) (ms2 t) (hs2 t) (ms3 t) (hs3 t) scr (Memref.isWhole_whole _) c1 c2 c3 (iblk m c 0 t) (iblk m c 1 t) (iblk m c 2 t)).2 Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact (View.read_writes_eq_canon _ _ _ (coverFirst c _ _ _ _ _ _ _ _ _ _ _ c1 c2 c3 _ _ _)).trans (canonFirst c _ _ _ _ _ _ _ _ _ _ _ c1 c2 c3 _ _ _)
        iexact Hg
      isplitl [Ho]; · iexact Ho
      isplitl [H0]; · iexact H0
      isplitl [H1]; · iexact H1
      isplitl [H2]; · iexact H2
      iexact H3
    · rw [Phi_castSucc m c t, PhiS_pos m c _ _ hz]
      iintro ⟨⟨HS, Hg⟩, Ho, ⟨%d0, H0⟩, ⟨%d1, H1⟩, ⟨%d2, H2⟩, H3⟩
      iapply ((stepFirst c (grid0.coords t) (ms0 t) (hs0 t) (ms1 t) (hs1 t) (ms2 t) (hs2 t) (ms3 t) (hs3 t) scr (Memref.isWhole_whole _) c1 c2 c3 (iblk m c 0 t) (iblk m c 1 t) (iblk m c 2 t)).2 Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact (View.read_writes_eq_canon _ _ _ (coverFirst c _ _ _ _ _ _ _ _ _ _ _ c1 c2 c3 _ _ _)).trans (canonFirst c _ _ _ _ _ _ _ _ _ _ _ c1 c2 c3 _ _ _)
        iexact Hg
      isplitl [Ho]; · iexact Ho
      isplitl [H0]; · iexact H0
      isplitl [H1]; · iexact H1
      isplitl [H2]; · iexact H2
      iexact H3
  · have c1 : ¬isFirst (grid0.coords t) := fun h => h0 ((isFirst_iff t).mp h)
    have c2 : isLater (grid0.coords t) := (isLater_iff t).mpr h0
    have hz : t.val ≠ 0 := fun h => h0 (by rw [h])
    rw [scrAt_later m c t h0]
    rw [Phi_castSucc m c t, PhiS_pos m c _ _ hz]
    by_cases h15 : t.val % 16 = 15
    · have c3 : isLast (grid0.coords t) := (isLast_iff t).mpr h15
      rw [show (dats m 0 c).leavesExact 3 t = owns (c : Thread nD τ) (ms3 t) fullShare ((dats m 0 c).after 3 t) from by
        unfold Dat.leavesExact; rw [live3 t c3], after3]
      unfold outAt
      rw [scrAt_later m c t h0]
      iintro ⟨⟨HS, Hg⟩, Ho, ⟨%d0, H0⟩, ⟨%d1, H1⟩, ⟨%d2, H2⟩, ⟨%d3, H3⟩⟩
      iapply ((stepLast c (grid0.coords t) (ms0 t) (hs0 t) (ms1 t) (hs1 t) (ms2 t) (hs2 t) (ms3 t) (hs3 t) scr (Memref.isWhole_whole _) c1 c2 c3 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact (View.read_writes_eq_canon _ _ _ (coverLastS c _ _ _ _ _ _ _ _ _ _ _ c1 c2 c3 _ _ _ _)).trans (canonLastS c _ _ _ _ _ _ _ _ _ _ _ c1 c2 c3 _ _ _ _)
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (coverLastO c _ _ _ _ _ _ _ _ _ _ _ c1 c2 c3 _ _ _ _)).trans (canonLastO c _ _ _ _ _ _ _ _ _ _ _ c1 c2 c3 _ _ _ _)
    · have c3 : ¬isLast (grid0.coords t) := fun h => h15 ((isLast_iff t).mp h)
      rw [Dat.leavesExact_idle (dats m 0 c) 3 t (idle3 t c3) (noFlush3 t c3)]
      iintro ⟨⟨HS, Hg⟩, Ho, ⟨%d0, H0⟩, ⟨%d1, H1⟩, ⟨%d2, H2⟩, H3⟩
      iapply ((stepLater c (grid0.coords t) (ms0 t) (hs0 t) (ms1 t) (hs1 t) (ms2 t) (hs2 t) (ms3 t) (hs3 t) scr (Memref.isWhole_whole _) c1 c2 c3 (iblk m c 0 t) (iblk m c 1 t) (iblk m c 2 t) _).2 Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact (View.read_writes_eq_canon _ _ _ (coverLater c _ _ _ _ _ _ _ _ _ _ _ c1 c2 c3 _ _ _ _)).trans (canonLater c _ _ _ _ _ _ _ _ _ _ _ c1 c2 c3 _ _ _ _)
        iexact Hg
      isplitl [Ho]; · iexact Ho
      isplitl [H0]; · iexact H0
      isplitl [H1]; · iexact H1
      isplitl [H2]; · iexact H2
      iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run and the frame -/

set_option backward.isDefEq.respectTransparency.types false in
/-- From any memory with zero counters every weakly fair execution of the program terminates, and every final state has
    every array of the call at what the proof data compute and every other buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KernelIdeal.Cases.lean ====
/-
  The grid of the call has 8 × 16 points; point `t` has row tile `t / 16` and target tile `j = t % 16`.
  The body branches three times on `j`: `j = 0` (the running minimum is set to the tile's minimum),
  `j > 0` (it is lowered by the tile's minimum), `j = 15` (the row's squared norm is added and the
  result stored into the output block).  This module decides each condition over the 128 points in
  closed form, says where the output block is idle and where it is written back, and names the staging
  and scratch buffers the body is called with.
-/
import proofs.«127365_j48215302865480_2_alg».proof.Proof.Gen.KernelIdeal.Frame
import proofs.«127365_j48215302865480_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- `j = 0`, as the body computes it from the point's second coordinate. -/
abbrev isFirst (i : grid0.Coords) : Prop :=
  (Scalar.cmpi .ne (Scalar.extui (Scalar.cmpi .eq (BitVec.ofNat 32 (i 1).val) 0#32)) 0#32) = 1#1
/-- `j > 0` (a signed comparison of the coordinate's word with zero). -/
abbrev isLater (i : grid0.Coords) : Prop :=
  (Scalar.cmpi .ne (Scalar.extui (Scalar.cmpi .sgt (BitVec.ofNat 32 (i 1).val) 0#32)) 0#32) = 1#1
/-- `j = 15`, the last target tile. -/
abbrev isLast (i : grid0.Coords) : Prop := k0_cond3 i = 1#1

theorem isFirst_iff : ∀ t : Fin cfg0.N, isFirst (grid0.coords t) ↔ t.val % 16 = 0 :=
  (by decide +kernel : ∀ t : Fin grid0.N, isFirst (grid0.coords t) ↔ t.val % 16 = 0)
theorem isLater_iff : ∀ t : Fin cfg0.N, isLater (grid0.coords t) ↔ t.val % 16 ≠ 0 :=
  (by decide +kernel : ∀ t : Fin grid0.N, isLater (grid0.coords t) ↔ t.val % 16 ≠ 0)
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last target tile nothing is stored into the output block: the window is idle there, -/
theorem idle3 : ∀ t : Fin cfg0.N, ¬isLast (grid0.coords t) → cfg0.idle 3 (grid0.coords t) = true := by decide +kernel
/-- and its block is not written back there. -/
theorem noFlush3 : ∀ t : Fin cfg0.N, ¬isLast (grid0.coords t) → (cfg0.win 3).flush t = false := by decide +kernel
/-- At the last target tile the output block is stored. -/
theorem live3 : ∀ t : Fin cfg0.N, isLast (grid0.coords t) → cfg0.idle 3 (grid0.coords t) = false := by decide +kernel

/-! ## The buffers the body is called with -/

abbrev ms0 (t : Fin cfg0.N) : Memref sig .tc .vmem S1024x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
/-- The scratch that carries the running minimum from one target tile to the next. -/
abbrev scr : Memref sig .tc .vmem S1024x1 .f32 := Memref.whole cc0_scratch0
/-- A view through which the contents of the output block and of the scratch are stated. -/
abbrev VO : View sig .tc .vmem S1024x1 .f32 := (Memref.whole cc0_stg3_0 : Memref sig .tc .vmem S1024x1 .f32).view
abbrev VS : View sig .tc .vmem S1024x1 .f32 := scr.view

/-- What the region lends the body besides the windows: the scratch at some contents, and the generator register. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.KernelIdeal.Body

end
-- ==== Proof.KernelIdeal.StepFirst.lean ====
/-
  The body at a point of the FIRST target tile (j = 0): it loads the three input blocks, loads the
  scratch (whatever it holds), and stores the tile's row minima into the scratch.  Nothing else is
  touched.  The run is symbolic; what the scratch ends with is the one piece the store wrote.
-/
import proofs.«127365_j48215302865480_2_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the scratch at anything — the body runs to its end and
    leaves the inputs as they were and the scratch with the pieces `LS` written. -/
noncomputable def stepFirst (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : isFirst i) (h2 : ¬isLater i) (h3 : ¬isLast i)
    (x0 : Vec F S1024x64 .f32) (x1 : Vec F S2048x64 .f32) (x2 : Vec F S2048 .f32) :
    { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg6.view.loc (c : Thread nD τ) ↦[arg6.view.set]{fullShare} arg6.view.writes (Elt F) f LS)) -∗ K ⟨⟩))
          ⊢ wp frame (wpE (defs₀ (F := F)) Variants.none c none) E (cc0__sdot_min_kernel i arg2 harg2 arg3 harg3 arg4 harg4 arg5 harg5 arg6 harg6) K } := by
  refine ⟨?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Body

end
-- ==== Proof.KernelIdeal.StepLater.lean ====
/-
  The body at a point of a LATER target tile that is not the last (0 < j < 15): it loads the three
  input blocks, loads the scratch — the running minimum the point before left —, and stores back the
  smaller of it and the tile's row minima.  The output block is not touched.
-/
import proofs.«127365_j48215302865480_2_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the scratch at the running minimum `xs` — the body runs to
    its end and leaves the inputs as they were and the scratch with the pieces `LS` written. -/
noncomputable def stepLater (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : ¬isFirst i) (h2 : isLater i) (h3 : ¬isLast i)
    (x0 : Vec F S1024x64 .f32) (x1 : Vec F S2048x64 .f32) (x2 : Vec F S2048 .f32) (xs : Vec F S1024x1 .f32) :
    { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg6.view.loc (c : Thread nD τ) ↦[arg6.view.set]{fullShare} arg6.view.writes (Elt F) f LS)) -∗ K ⟨⟩))
          ⊢ wp frame (wpE (defs₀ (F := F)) Variants.none c none) E (cc0__sdot_min_kernel i arg2 harg2 arg3 harg3 arg4 harg4 arg5 harg5 arg6 harg6) K } := by
  refine ⟨?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Body

end
-- ==== Proof.KernelIdeal.StepLast.lean ====
/-
  The body at a point of the LAST target tile (j = 15): as at any later tile it lowers the scratch by the
  tile's row minima; then it loads the scratch back, adds the rows' squared norms, loads the output
  block (whatever it holds) and stores the sum into it.
-/
import proofs.«127365_j48215302865480_2_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the scratch at the running minimum `xs`, the output block at
    anything — the body runs to its end and leaves the inputs as they were, the output block with the pieces `LO`
    written and the scratch with the pieces `LS` written. -/
noncomputable def stepLast (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : ¬isFirst i) (h2 : isLater i) (h3 : isLast i)
    (x0 : Vec F S1024x64 .f32) (x1 : Vec F S2048x64 .f32) (x2 : Vec F S2048 .f32) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__sdot_min_kernel i arg2 harg2 arg3 harg3 arg4 harg4 arg5 harg5 arg6 harg6) K } := by
  refine ⟨?_, ?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Body

end
-- ==== Proof.KernelIdeal.Leaves.lean ====
/-
  What each case of the body leaves, named.  Every store of the body writes a whole 1024 × 1 block, so the
  pieces a case wrote cover the buffer, and what the buffer then holds is the last store's value:
  at the first target tile the tile's row minima; at a later tile the smaller of the running minimum and the
  tile's row minima; at the last tile, in the output block, that new running minimum plus the rows' squared
  norms.  A whole-block load of a whole buffer reads the buffer's contents.
-/
import proofs.«127365_j48215302865480_2_alg».proof.Proof.KernelIdeal.StepFirst
import proofs.«127365_j48215302865480_2_alg».proof.Proof.KernelIdeal.StepLater
import proofs.«127365_j48215302865480_2_alg».proof.Proof.KernelIdeal.StepLast
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of the body starts at its block's origin. -/
theorem origin2 : (![0, 0] : Fin 2 → Nat) = fun _ => 0 := by
  funext a; fin_cases a <;> rfl
theorem origin1 : (![0] : Fin 1 → Nat) = fun _ => 0 := by
  funext a; fin_cases a; rfl

section First
variable (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : isFirst i) (h2 : ¬isLater i) (h3 : ¬isLast i)
    (x0 : Vec F S1024x64 .f32) (x1 : Vec F S2048x64 .f32) (x2 : Vec F S2048 .f32)

theorem coverFirst (y : S1024x1.Idx) : ∃ pc ∈ (stepFirst c i arg2 harg2 arg3 harg3 arg4 harg4 arg5 harg5 arg6 harg6 h1 h2 h3 x0 x1 x2).1, y ∈ pc.1.set :=
  View.cover_of_tiledL (stepFirst c i arg2 harg2 arg3 harg3 arg4 harg4 arg5 harg5 arg6 harg6 h1 h2 h3 x0 x1 x2).1 S1024x1.size (by sl_kernel_rfl) y

/-- After the first target tile the scratch holds the tile's row minima. -/
theorem canonFirst : View.canon (stepFirst c i arg2 harg2 arg3 harg3 arg4 harg4 arg5 harg5 arg6 harg6 h1 h2 h3 x0 x1 x2).1 = k0_pay2 x0 x1 x2 := by
  unfold stepFirst; dsimp only
  rw [View.canon_unit_zero (S := S1024x1) (off := ![0, 0]) origin2]
  simp only [View.readAt_eq_ld, Memref.IsWhole.read_unread,
    View.ld_unit_zero (S := S1024x64) (off := ![0, 0]) origin2, View.ld_unit_zero (S := S2048x64) (off := ![0, 0]) origin2,
    View.ld_unit_zero (S := S2048) (off := ![0]) origin1, View.ld_unit_zero (S := S1024x1) (off := ![0, 0]) origin2]
end First

section Later
variable (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : ¬isFirst i) (h2 : isLater i) (h3 : ¬isLast i)
    (x0 : Vec F S1024x64 .f32) (x1 : Vec F S2048x64 .f32) (x2 : Vec F S2048 .f32) (xs : Vec F S1024x1 .f32)

theorem coverLater (y : S1024x1.Idx) : ∃ pc ∈ (stepLater c i arg2 harg2 arg3 harg3 arg4 harg4 arg5 harg5 arg6 harg6 h1 h2 h3 x0 x1 x2 xs).1, y ∈ pc.1.set :=
  View.cover_of_tiledL (stepLater c i arg2 harg2 arg3 harg3 arg4 harg4 arg5 harg5 arg6 harg6 h1 h2 h3 x0 x1 x2 xs).1 S1024x1.size (by sl_kernel_rfl) y

/-- After a later tile the scratch holds the smaller of the running minimum and the tile's row minima. -/
theorem canonLater : View.canon (stepLater c i arg2 harg2 arg3 harg3 arg4 harg4 arg5 harg5 arg6 harg6 h1 h2 h3 x0 x1 x2 xs).1 = k0_pay3 x0 x1 x2 xs := by
  unfold stepLater; dsimp only
  rw [View.canon_unit_zero (S := S1024x1) (off := ![0, 0]) origin2]
  simp only [View.readAt_eq_ld, Memref.IsWhole.read_unread,
    View.ld_unit_zero (S := S1024x64) (off := ![0, 0]) origin2, View.ld_unit_zero (S := S2048x64) (off := ![0, 0]) origin2,
    View.ld_unit_zero (S := S2048) (off := ![0]) origin1, View.ld_unit_zero (S := S1024x1) (off := ![0, 0]) origin2]
end Later

section Last
variable (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole)
    (h1 : ¬isFirst i) (h2 : isLater i) (h3 : isLast i)
    (x0 : Vec F S1024x64 .f32) (x1 : Vec F S2048x64 .f32) (x2 : Vec F S2048 .f32) (xs : Vec F S1024x1 .f32)

theorem coverLastO (y : S1024x1.Idx) : ∃ pc ∈ (stepLast c i arg2 harg2 arg3 harg3 arg4 harg4 arg5 harg5 arg6 harg6 h1 h2 h3 x0 x1 x2 xs).1, y ∈ pc.1.set :=
  View.cover_of_tiledL (stepLast c i arg2 harg2 arg3 harg3 arg4 harg4 arg5 harg5 arg6 harg6 h1 h2 h3 x0 x1 x2 xs).1 S1024x1.size (by sl_kernel_rfl) y
theorem coverLastS (y : S1024x1.Idx) : ∃ pc ∈ (stepLast c i arg2 harg2 arg3 harg3 arg4 harg4 arg5 harg5 arg6 harg6 h1 h2 h3 x0 x1 x2 xs).2.1, y ∈ pc.1.set :=
  View.cover_of_tiledL (stepLast c i arg2 harg2 arg3 harg3 arg4 harg4 arg5 harg5 arg6 harg6 h1 h2 h3 x0 x1 x2 xs).2.1 S1024x1.size (by sl_kernel_rfl) y

/-- At the last tile the scratch is lowered as at any later tile, -/
theorem canonLastS : View.canon (stepLast c i arg2 harg2 arg3 harg3 arg4 harg4 arg5 harg5 arg6 harg6 h1 h2 h3 x0 x1 x2 xs).2.1 = k0_pay3 x0 x1 x2 xs := by
  unfold stepLast; dsimp only
  sl_unfold_words
  rw [View.canon_unit_zero (S := S1024x1) (off := ![0, 0]) origin2]
  simp only [View.readAt_eq_ld, Memref.IsWhole.read_unread,
    View.ld_unit_zero (S := S1024x64) (off := ![0, 0]) origin2, View.ld_unit_zero (S := S2048x64) (off := ![0, 0]) origin2,
    View.ld_unit_zero (S := S2048) (off := ![0]) origin1, View.ld_unit_zero (S := S1024x1) (off := ![0, 0]) origin2]

/-- and the output block holds that new running minimum plus the rows' squared norms. -/
theorem canonLastO : View.canon (stepLast c i arg2 harg2 arg3 harg3 arg4 harg4 arg5 harg5 arg6 harg6 h1 h2 h3 x0 x1 x2 xs).1 = k0_pay4 x0 (k0_pay3 x0 x1 x2 xs) := by
  unfold stepLast; dsimp only
  sl_unfold_words
  rw [View.canon_unit_zero (S := S1024x1) (off := ![0, 0]) origin2]
  simp only [View.readAt_eq_ld, Memref.IsWhole.read_unread,
    View.ld_unit_zero (S := S1024x64) (off := ![0, 0]) origin2, View.ld_unit_zero (S := S2048x64) (off := ![0, 0]) origin2,
    View.ld_unit_zero (S := S2048) (off := ![0]) origin1, View.ld_unit_zero (S := S1024x1) (off := ![0, 0]) origin2]
  exact congrArg (k0_pay4 x0) (View.readCov_unit_zero (S := S1024x1) arg6.view (off := ![0, 0]) origin2 _ _)
end Last

end Cert.KernelIdeal.Body

end
-- ==== Proof.KernelIdeal.Data.lean ====
/-
  The call as a whole.  The scratch carries the running row minima from one target tile to the next:
  after point `t` it holds the tile's row minima if `t` is at the first target tile of its row tile, and
  otherwise the smaller of what point `t - 1` left and the tile's row minima (`scrAt`).  The output block a
  point stores — only the last target tile of a row tile does — is that running minimum plus the rows'
  squared norms (`outAt`).  With these as the proof data of the pipeline, the body's three cases discharge
  the obligation at every point, and the program runs: every execution ends, faults nowhere, and leaves each
  array of the call at what the data say.
-/
import proofs.«127365_j48215302865480_2_alg».proof.Proof.KernelIdeal.Leaves

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running minimum, point by point -/

/-- What the scratch holds after the body at point `n`. -/
def scrAt (c : Dev nD) : (n : ℕ) → n < cfg0.N → Vec F S1024x1 .f32
  | 0, hn => k0_pay2 (iblk m c 0 ⟨0, hn⟩) (iblk m c 1 ⟨0, hn⟩) (iblk m c 2 ⟨0, hn⟩)
  | n + 1, hn =>
    if (n + 1) % 16 = 0 then k0_pay2 (iblk m c 0 ⟨n + 1, hn⟩) (iblk m c 1 ⟨n + 1, hn⟩) (iblk m c 2 ⟨n + 1, hn⟩)
    else k0_pay3 (iblk m c 0 ⟨n + 1, hn⟩) (iblk m c 1 ⟨n + 1, hn⟩) (iblk m c 2 ⟨n + 1, hn⟩) (scrAt c n (Nat.lt_of_succ_lt hn))

/-- At the first target tile of a row tile: the tile's row minima. -/
theorem scrAt_first (c : Dev nD) (t : Fin cfg0.N) (h : t.val % 16 = 0) :
    scrAt m c t.val t.isLt = k0_pay2 (iblk m c 0 t) (iblk m c 1 t) (iblk m c 2 t) := by
  obtain ⟨n, hn⟩ := t
  cases n with
  | zero => rfl
  | succ n => exact if_pos h

/-- At a later target tile: the smaller of what the point before left and the tile's row minima. -/
theorem scrAt_later (c : Dev nD) (t : Fin cfg0.N) (h : t.val % 16 ≠ 0) :
    scrAt m c t.val t.isLt = k0_pay3 (iblk m c 0 t) (iblk m c 1 t) (iblk m c 2 t) (scrAt m c (t.val - 1) (Nat.lt_of_le_of_lt (Nat.sub_le _ _) t.isLt)) := by
  obtain ⟨n, hn⟩ := t
  cases n with
  | zero => exact absurd (Nat.zero_mod _) h
  | succ n => exact if_neg h

/-- What the output block holds after the body at a point of the last target tile. -/
def outAt (c : Dev nD) (t : Fin cfg0.N) : Vec F S1024x1 .f32 := k0_pay4 (iblk m c 0 t) (scrAt m c t.val t.isLt)

/-! ## The invariant -/

/-- Before point `n`: at the start whatever the region lends; afterwards the scratch at what point `n - 1` left, and
    the generator register at some state. -/
def PhiS (c : Dev nD) : (n : ℕ) → n ≤ cfg0.N → sProp 𝕄
  | 0, _ => Pipeline.ΦA spec0 c
  | n + 1, hn => iprop(iprop(owns (c : Thread nD τ) scr fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scr fullShare (scrAt m c (n - 1) (by omega))) ∗ (∃ r, prngReg c r)) := by
  cases n with
  | zero => exact absurd rfl hz
  | succ n => rfl

/-! ## The proof data -/

/-- On core `c`: the arrays as the region finds them; after the body each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- An input's buffer is handed back at its block. -/
theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's target tile says which case it is in; the
    invariant hands the body the scratch (at anything before the very first point, else at what the point before left) and
    takes it back at this point's running minimum; away from the last target tile the output block is handed back as found,
    at the last it holds `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 128 := lt_of_lt_of_eq t.isLt (show cfg0.N = 128 from N_0)
  by_cases h0 : t.val % 16 = 0
  · have c1 : isFirst (grid0.coords t) := (isFirst_iff t).mpr h0
    have c2 : ¬isLater (grid0.coords t) := fun h => (isLater_iff t).mp h h0
    have c3 : ¬isLast (grid0.coords t) := fun h => by have := (isLast_iff t).mp h; omega
    rw [Dat.leavesExact_idle (dats m 0 c) 3 t (idle3 t c3) (noFlush3 t c3)]
    rw [scrAt_first m c t h0]
    by_cases hz : t.val = 0
    · rw [Phi_castSucc m c t, PhiS_zero m c _ _ hz, PhiA_eq]
      iintro ⟨⟨HS, Hg⟩, Ho, ⟨%d0, H0⟩, ⟨%d1, H1⟩, ⟨%d2, H2⟩, H3⟩
      iapply ((stepFirst c (grid0.coords t) (ms0 t) (hs0 t) (ms1 t) (hs1 t) (ms2 t) (hs2 t) (ms3 t) (hs3 t) scr (Memref.isWhole_whole _) c1 c2 c3 (iblk m c 0 t) (iblk m c 1 t) (iblk m c 2 t)).2 Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact (View.read_writes_eq_canon _ _ _ (coverFirst c _ _ _ _ _ _ _ _ _ _ _ c1 c2 c3 _ _ _)).trans (canonFirst c _ _ _ _ _ _ _ _ _ _ _ c1 c2 c3 _ _ _)
        iexact Hg
      isplitl [Ho]; · iexact Ho
      isplitl [H0]; · iexact H0
      isplitl [H1]; · iexact H1
      isplitl [H2]; · iexact H2
      iexact H3
    · rw [Phi_castSucc m c t, PhiS_pos m c _ _ hz]
      iintro ⟨⟨HS, Hg⟩, Ho, ⟨%d0, H0⟩, ⟨%d1, H1⟩, ⟨%d2, H2⟩, H3⟩
      iapply ((stepFirst c (grid0.coords t) (ms0 t) (hs0 t) (ms1 t) (hs1 t) (ms2 t) (hs2 t) (ms3 t) (hs3 t) scr (Memref.isWhole_whole _) c1 c2 c3 (iblk m c 0 t) (iblk m c 1 t) (iblk m c 2 t)).2 Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact (View.read_writes_eq_canon _ _ _ (coverFirst c _ _ _ _ _ _ _ _ _ _ _ c1 c2 c3 _ _ _)).trans (canonFirst c _ _ _ _ _ _ _ _ _ _ _ c1 c2 c3 _ _ _)
        iexact Hg
      isplitl [Ho]; · iexact Ho
      isplitl [H0]; · iexact H0
      isplitl [H1]; · iexact H1
      isplitl [H2]; · iexact H2
      iexact H3
  · have c1 : ¬isFirst (grid0.coords t) := fun h => h0 ((isFirst_iff t).mp h)
    have c2 : isLater (grid0.coords t) := (isLater_iff t).mpr h0
    have hz : t.val ≠ 0 := fun h => h0 (by rw [h])
    rw [scrAt_later m c t h0]
    rw [Phi_castSucc m c t, PhiS_pos m c _ _ hz]
    by_cases h15 : t.val % 16 = 15
    · have c3 : isLast (grid0.coords t) := (isLast_iff t).mpr h15
      rw [show (dats m 0 c).leavesExact 3 t = owns (c : Thread nD τ) (ms3 t) fullShare ((dats m 0 c).after 3 t) from by
        unfold Dat.leavesExact; rw [live3 t c3], after3]
      unfold outAt
      rw [scrAt_later m c t h0]
      iintro ⟨⟨HS, Hg⟩, Ho, ⟨%d0, H0⟩, ⟨%d1, H1⟩, ⟨%d2, H2⟩, ⟨%d3, H3⟩⟩
      iapply ((stepLast c (grid0.coords t) (ms0 t) (hs0 t) (ms1 t) (hs1 t) (ms2 t) (hs2 t) (ms3 t) (hs3 t) scr (Memref.isWhole_whole _) c1 c2 c3 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact (View.read_writes_eq_canon _ _ _ (coverLastS c _ _ _ _ _ _ _ _ _ _ _ c1 c2 c3 _ _ _ _)).trans (canonLastS c _ _ _ _ _ _ _ _ _ _ _ c1 c2 c3 _ _ _ _)
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (coverLastO c _ _ _ _ _ _ _ _ _ _ _ c1 c2 c3 _ _ _ _)).trans (canonLastO c _ _ _ _ _ _ _ _ _ _ _ c1 c2 c3 _ _ _ _)
    · have c3 : ¬isLast (grid0.coords t) := fun h => h15 ((isLast_iff t).mp h)
      rw [Dat.leavesExact_idle (dats m 0 c) 3 t (idle3 t c3) (noFlush3 t c3)]
      iintro ⟨⟨HS, Hg⟩, Ho, ⟨%d0, H0⟩, ⟨%d1, H1⟩, ⟨%d2, H2⟩, H3⟩
      iapply ((stepLater c (grid0.coords t) (ms0 t) (hs0 t) (ms1 t) (hs1 t) (ms2 t) (hs2 t) (ms3 t) (hs3 t) scr (Memref.isWhole_whole _) c1 c2 c3 (iblk m c 0 t) (iblk m c 1 t) (iblk m c 2 t) _).2 Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact (View.read_writes_eq_canon _ _ _ (coverLater c _ _ _ _ _ _ _ _ _ _ _ c1 c2 c3 _ _ _ _)).trans (canonLater c _ _ _ _ _ _ _ _ _ _ _ c1 c2 c3 _ _ _ _)
        iexact Hg
      isplitl [Ho]; · iexact Ho
      isplitl [H0]; · iexact H0
      isplitl [H1]; · iexact H1
      isplitl [H2]; · iexact H2
      iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run and the frame -/

set_option backward.isDefEq.respectTransparency.types false in
/-- From any memory with zero counters every weakly fair execution of the program terminates, and every final state has
    every array of the call at what the proof data compute and every other buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KernelIdeal.Final.lean ====
/-
  From blocks to the array.  The output array has 8192 rows of one entry; the call writes it back in eight
  blocks of 1024 rows, row tile `r`'s block at the last target tile of that row tile (point `16 r + 15`).
  So row `n` of the array ends holding row `n % 1024` of what point `16 (n / 1024) + 15` stored (`outArr`):
  each block written back is the restriction of that one function, the eight blocks cover the array, and the
  array after the run is therefore that function.
-/
import proofs.«127365_j48215302865480_2_alg».proof.Proof.KernelIdeal.Data
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point that writes back the block holding row `i`: the last target tile of the row's row tile. -/
def ptOf (i : S8192x1.Idx) : Fin cfg0.N :=
  ⟨((i 0).val / 1024) * 16 + 15, by
    have h : (i 0).val < 8192 := (i 0).isLt
    have hN : cfg0.N = 128 := N_0
    omega⟩
/-- The row inside that block. -/
def rowOf (i : S8192x1.Idx) : Fin 1024 := ⟨(i 0).val % 1024, Nat.mod_lt _ (by decide)⟩

theorem ptOf_val (i : S8192x1.Idx) : (ptOf i).val = ((i 0).val / 1024) * 16 + 15 := rfl
theorem rowOf_val (i : S8192x1.Idx) : (rowOf i).val = (i 0).val % 1024 := rfl

/-- What the output array holds after the run, row by row. -/
def outArr (c : Dev nD) : S8192x1.Idx → Elt F .f32 := fun i => outAt m c (ptOf i) (ix2 (rowOf i) 0)

/-- Row `p` of the block of a last-target-tile point `t` is row `1024 (t / 16) + p` of the array. -/
theorem outArr_apply (c : Dev nD) (t : Fin cfg0.N) (ht : t.val % 16 = 15) (p : Fin 1024) (i : S8192x1.Idx)
    (hi : (i 0).val = (t.val / 16) * 1024 + p.val) : outArr m c i = outAt m c t (ix2 p 0) := by
  have h1 : ptOf i = t := Fin.ext (by rw [ptOf_val, hi]; have := p.isLt; omega)
  have h2 : rowOf i = p := Fin.ext (by rw [rowOf_val, hi]; have := p.isLt; omega)
  unfold outArr; rw [h1, h2]

/-- The output window's block index at point `t`: the row tile, and the only column block. -/
theorem idx3 : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- What a last-target-tile point writes back is its block of `outArr`. -/
theorem flushed3_eq (c : Dev nD) (t : Fin cfg0.N) (hf : (cfg0.win 3).flush t = true) :
    (dats m 0 c).flushed 3 t = ((cfg0.win 3).blk t).view.read (Elt F) (outArr m c) := by
  show (cfg0.win 3).cut (grid0.coords t) ((dats m 0 c).after 3 t) = _
  rw [after3]
  have ht : t.val % 16 = 15 := (flush0_3 t).mp hf
  obtain ⟨i0, i1⟩ := idx3 t
  funext j
  show outAt m c t j = outArr m c (((cfg0.win 3).blk t).view.emb j)
  have hj0 : (j 0).val < 1024 := (j 0).isLt
  have hj : j = ix2 (⟨(j 0).val, hj0⟩ : Fin 1024) (0 : Fin 1) := by
    funext a; apply Fin.ext
    match a with
    | ⟨0, _⟩ => rfl
    | ⟨1, _⟩ => show (j 1).val = 0; have : (j 1).val < 1 := (j 1).isLt; omega
  rw [outArr_apply m c t ht ⟨(j 0).val, hj0⟩ _ (by
    show win0_3.index t (0 : Fin 2) * 1024 + 1 * (j 0).val = (t.val / 16) * 1024 + (j 0).val
    omega)]
  exact congrArg (outAt m c t) hj

/-- An index of the array is in point `t`'s block iff each coordinate is in the block's range. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v3).slice (win0_3.rect t)).set ↔ _
  rw [View.set_slice_whole, Rect.mem_set_unit]
  exact Iff.rfl

/-- Every row of the array is in the block some point writes back. -/
theorem cover3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  refine ⟨ptOf i, (flush0_3 _).mpr (by rw [ptOf_val]; omega), ?_⟩
  rw [mem_blk3]
  obtain ⟨i0, i1⟩ := idx3 (ptOf i)
  rw [ptOf_val] at i0
  intro a
  match a with
  | ⟨0, _⟩ => show win0_3.index (ptOf i) (0 : Fin 2) * 1024 ≤ (i 0).val ∧ (i 0).val < win0_3.index (ptOf i) (0 : Fin 2) * 1024 + 1024; omega
  | ⟨1, _⟩ => show win0_3.index (ptOf i) (1 : Fin 2) * 1 ≤ (i 1).val ∧ (i 1).val < win0_3.index (ptOf i) (1 : Fin 2) * 1 + 1; omega

/-- The output array after the run. -/
theorem final3 (c : Dev nD) : (dats m 0 c).arrAt 3 cfg0.N = outArr m c :=
  (dats m 0 c).arrAt_eq_of_cover 3 (outArr m c) (fun t hf => flushed3_eq m c t hf) (cover3)

end Cert.KernelIdeal.Body

end
-- ==== Proof.Spec.lean ====
/-
  The mathematics both programs compute, stated once over the argument arrays as extended-real functions.

  For a source row `n` (of 8192) and a target row `m` (of 32768), with rows of 64 coordinates, the cost of the
  pair is the squared distance ‖x_n‖² + ‖y_m‖² − 2⟨x_n, y_m⟩ less the potential ψ_m; the result at `n` is the
  minimum of that cost over all `m` (plus the mean of ψ, which both programs add in the same way and which is
  therefore not part of this module).

  One program takes the minimum of the whole cost at once (`rmin`).  The other leaves ‖x_n‖² out of the
  minimum, folds the factor −2 into the target row before the inner product, takes the minimum target block
  by target block (16 blocks of 2048 rows), and adds ‖x_n‖² afterwards (`kmin`).  On finite inputs the two
  agree: a real constant moves out of a minimum, and a real factor moves through a finite sum.
-/
import Idealize.ShloMosaic.PureOps.Ideal
import Idealize.ShloMosaic.Lib.ValueIdx

noncomputable section

namespace Cert.MinCost

open Idealize.ShloMosaic Idealize.ShloMosaic.ValueIdx
open scoped BigOperators

/-- The source rows, the target rows and the potentials, as shapes. -/
abbrev XS : Shape := ⟨2, ![8192, 64]⟩
abbrev YS : Shape := ⟨2, ![32768, 64]⟩
abbrev PS : Shape := ⟨1, ![32768]⟩

/-- ‖x_n‖²: the sum over the 64 coordinates of the square. -/
def sqx (x : XS.Idx → EReal) (n : Fin 8192) : EReal := ∑ d : Fin 64, x (ix2 n d) * x (ix2 n d)

/-- ‖y_m‖². -/
def sqy (y : YS.Idx → EReal) (m : Fin 32768) : EReal := ∑ d : Fin 64, y (ix2 m d) * y (ix2 m d)

/-- The word of −2.0 and the word of 2.0, as the extended reals they denote. -/
def negTwo : EReal := Ideal.ofBits .f32 0xC0000000#32
def two : EReal := Ideal.ofBits .f32 0x40000000#32

/-- The cost of the pair (n, m) WITHOUT ‖x_n‖², the factor −2 folded into the target row:
    ∑_d x_n[d] · (−2 · y_m[d]) + (‖y_m‖² − ψ_m). -/
def kcost (x : XS.Idx → EReal) (y : YS.Idx → EReal) (psi : PS.Idx → EReal) (n : Fin 8192) (m : Fin 32768) : EReal :=
  (∑ d : Fin 64, x (ix2 n d) * (negTwo * y (ix2 m d))) + (sqy y m - psi (ix1 m))

/-- The whole cost of the pair (n, m): ((‖x_n‖² + ‖y_m‖²) − 2 · ⟨x_n, y_m⟩) − ψ_m. -/
def rcost (x : XS.Idx → EReal) (y : YS.Idx → EReal) (psi : PS.Idx → EReal) (n : Fin 8192) (m : Fin 32768) : EReal :=
  ((sqx x n + sqy y m) - two * ∑ d : Fin 64, x (ix2 n d) * y (ix2 m d)) - psi (ix1 m)

/-- Row `q` of target block `j` (16 blocks of 2048 rows) as a target row. -/
def tgt (j : Fin 16) (q : Fin 2048) : Fin 32768 := ⟨j.val * 2048 + q.val, by omega⟩

/-- Block by block: the minimum over the 16 blocks of the minimum inside each block of the cost without ‖x_n‖²,
    and ‖x_n‖² added afterwards. -/
def kmin (x : XS.Idx → EReal) (y : YS.Idx → EReal) (psi : PS.Idx → EReal) (n : Fin 8192) : EReal :=
  (Finset.univ.inf fun j : Fin 16 => Finset.univ.inf fun q : Fin 2048 => kcost x y psi n (tgt j q)) + sqx x n

/-- At once: the minimum over all target rows of the whole cost. -/
def rmin (x : XS.Idx → EReal) (y : YS.Idx → EReal) (psi : PS.Idx → EReal) (n : Fin 8192) : EReal :=
  Finset.univ.inf fun m : Fin 32768 => rcost x y psi n m

end Cert.MinCost

end
-- ==== Proof.TailAt.lean ====
/-
  What the host computes after the kernel has run, at the ideal (extended-real) values.

  The kernel leaves the [8192, 1] column of minima (each already with ‖x_n‖² added).  The host then views the
  column as the vector [8192] and adds to every entry the mean of the potentials: their sum (started from the word
  of zero) divided by the word of 32768.  The potentials are the third argument as launched: no operation before or
  after the kernel writes it and the kernel stages no window of it.
-/
import proofs.«127365_j48215302865480_2_alg».proof.Proof.Gen.KernelIdeal.Frame
import proofs.«127365_j48215302865480_2_alg».proof.Proof.Spec
import Idealize.ShloMosaic.Lib.Pipeline.FrameSuffix
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic
import Idealize.ShloMosaic.PureOps.Ideal.Laws

noncomputable section

namespace Cert.KernelIdeal.Tail

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (c : Dev nD)

/-- The program's result, for any proof data of the kernel's run: the column the kernel leaves, viewed as a vector,
    plus the mean of the third argument broadcast over the 8192 entries. -/
theorem tail_eq (dats : (p : Fin 1) → (c : Dev nD) → Pipeline.Dat τ (Elt Ideal) Unit ℕ (UR sig nD τ) ℕ (cfgs p) c) :
    (Pipeline.afterTail₀ cfgs dats 0 (Gen.V0 m) [Gen.hostOps1] c main_v8 : S8192.Idx → EReal)
      = addf (F := Ideal) (φ := .f32)
          (shapeCast S8192 ((dats 0 c).arrAt 3 cfg0.N : S8192x1.Idx → EReal) shapeCasts_S8192x1_S8192)
          (broadcastInDim S8192 ![] bcast_S_S8192
            (Host.divf (F := Ideal) (φ := .f32)
              (Host.reduceAdd (F := Ideal) (φ := .f32) (m ((c : Thread nD τ).loc main_arg2) : S32768.Idx → EReal)
                (constant (F := Ideal) S_ .f32 0x00000000#32) reducesTo_S32768_S_d0 h_S_)
              (constant (F := Ideal) S_ .f32 0x47000000#32))) := by
  unfold Pipeline.afterTail₀
  show StableHlo.after hostOps1 _ (Proc.devRef .tc main_v8) = _
  after_results
  have h3 := Pipeline.withArrays_arr spec0 launch0.win.arr_inj c (V0 m c) (fun w => (dats 0 c).arrAt w (cfgs 0).N) 3
  have h2 := (Pipeline.withArrays_of_ne spec0 c (V0 m c) (fun w => (dats 0 c).arrAt w (cfgs 0).N) main_arg2
    (by exact (by decide : ∀ w, Pipeline.arrRef spec0 w ≠ main_arg2))).trans (V_main_arg2 m c)
  show addf (F := Ideal) (φ := .f32)
      (shapeCast S8192 (Pipeline.withArrays spec0 c (V0 m c) (fun w => (dats 0 c).arrAt w (cfgs 0).N)
        (Proc.devRef .tc (Pipeline.arrRef spec0 3)) : S8192x1.Idx → EReal) shapeCasts_S8192x1_S8192)
      (broadcastInDim S8192 ![] bcast_S_S8192
        (Host.divf (F := Ideal) (φ := .f32)
          (Host.reduceAdd (F := Ideal) (φ := .f32)
            (Pipeline.withArrays spec0 c (V0 m c) (fun w => (dats 0 c).arrAt w (cfgs 0).N) (Proc.devRef .tc main_arg2) : S32768.Idx → EReal)
            (constant (F := Ideal) S_ .f32 0x00000000#32) reducesTo_S32768_S_d0 h_S_)
          (constant (F := Ideal) S_ .f32 0x47000000#32))) = _
  rw [h3, h2]

end Cert.KernelIdeal.Tail

end
-- ==== Proof.PayloadAt.lean ====
/-
  The kernel's pure values read at an index, at the ideal (extended-real) values.

  Per point of a 1024-row tile and a 2048-row target tile the kernel body computes a column vector
  [1024, 1]; each of its entries is read here at its one index (p, 0):
    · the tile minimum: the minimum over the 2048 target rows q of  ∑_d x[p,d] · (−2 · y[q,d]) + shift[q];
    · the same through a shape cast to its own shape (the identity);
    · the running minimum: the minimum of the stored value and the tile minimum;
    · the final value: the stored running minimum plus ∑_d x[p,d] · x[p,d].
-/
import proofs.«127365_j48215302865480_2_alg».proof.Proof.Gen.KernelIdeal.Skeleton
import proofs.«127365_j48215302865480_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- A column vector [n, 1] cast from the vector [n] reads, at (p, 0), the vector at p. -/
theorem shapeCast_col_apply {α : Type} {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The second payload is the tile minimum: a shape cast to the same shape is the identity. -/
theorem pay2_eq (v0 : Vec Ideal S1024x64 .f32) (v1 : Vec Ideal S2048x64 .f32) (v2 : Vec Ideal S2048 .f32) :
    k0_pay2 (F := Ideal) v0 v1 v2 = k0_pay1 (F := Ideal) v0 v1 v2 := by
  unfold k0_pay2
  exact shapeCast_self _ _

/-- The running minimum at (p, 0): the minimum of the stored value and the tile minimum there. -/
theorem pay3_apply (v0 : Vec Ideal S1024x64 .f32) (v1 : Vec Ideal S2048x64 .f32) (v2 : Vec Ideal S2048 .f32)
    (v23 : Vec Ideal S1024x1 .f32) (p : Fin 1024) :
    k0_pay3 (F := Ideal) v0 v1 v2 v23 (ix2 p 0) = min (v23 (ix2 p 0)) (k0_pay1 (F := Ideal) v0 v1 v2 (ix2 p 0)) := by
  unfold k0_pay3
  rw [shapeCast_self]
  rfl

/-- The final value at (p, 0): the stored running minimum plus the sum over the 64 coordinates of the squares of row p. -/
theorem pay4_apply (v0 : Vec Ideal S1024x64 .f32) (v26 : Vec Ideal S1024x1 .f32) (p : Fin 1024) :
    k0_pay4 (F := Ideal) v0 v26 (ix2 p 0) = v26 (ix2 p 0) + ∑ d : Fin 64, v0 (ix2 p d) * v0 (ix2 p d) := by
  unfold k0_pay4
  refine (addf_apply _ _ _).trans ?_
  refine congrArg (v26 (ix2 p 0) + ·) ?_
  refine (shapeCast_col_apply _ shapeCasts_S1024_S1024x1 p 0).trans ?_
  refine (Ideal.multiReduction_add_single (mulf v0 v0) 0x00000000#32 reduces_S1024x64_S1024 (.inl rfl) rfl (ix1 p)).trans ?_
  refine Finset.sum_congr rfl fun d _ => ?_
  refine (mulf_apply _ _ _).trans ?_
  have e : reduces_S1024x64_S1024.lift (ix1 p) d = ix2 p d :=
    funext fun a => Fin.ext (by match a with | ⟨0, _⟩ => rfl | ⟨1, _⟩ => rfl)
  exact congrArg (fun i => v0 i * v0 i) e

/-- The word 0x7F800000 denotes +∞, the top extended real. -/
theorem ofBits_posInf : Ideal.ofBits .f32 0x7F800000#32 = (⊤ : EReal) := by simp [Ideal.ofBits, Ideal.ieee]

/-- Folding the minimum from +∞ over every index is the infimum over every index. -/
theorem fold_min_top_eq_inf {ι : Type} [Fintype ι] (f : ι → EReal) :
    (Finset.univ : Finset ι).fold (FloatOps.minimumf (F := Ideal) (φ := .f32)) (⊤ : EReal) f = Finset.univ.inf f := rfl

/-- A minimum lane-reduction of a [1024, 2048] vector started from +∞, read at row p: the infimum over the 2048 lanes. -/
theorem rowMin_apply (src : FVec Ideal S1024x2048 .f32) (p : Fin 1024) :
    multiReduction (F := Ideal) .minimumf [1] S1024 src 0x7F800000#32 reduces_S1024x2048_S1024 (.inl rfl) rfl (ix1 p)
      = Finset.univ.inf fun q : Fin 2048 => src (ix2 p q) := by
  refine (multiReduction_minimumf_eq_fold src 0x7F800000#32 reduces_S1024x2048_S1024 (.inl rfl) rfl (ix1 p)).trans ?_
  refine (reduces_S1024x2048_S1024.fold_filter_drop_single FloatOps.minimumf _ src (ix1 p)).trans ?_
  show (Finset.univ : Finset (Fin 2048)).fold (FloatOps.minimumf (F := Ideal) (φ := .f32)) (Ideal.ofBits .f32 0x7F800000#32)
      (fun q : Fin 2048 => src (reduces_S1024x2048_S1024.lift (ix1 p) q)) = _
  rw [ofBits_posInf]
  refine (fold_min_top_eq_inf _).trans ?_
  refine congrArg (Finset.univ.inf) (funext fun q => ?_)
  exact congrArg src (funext fun a => Fin.ext (by match a with | ⟨0, _⟩ => rfl | ⟨1, _⟩ => rfl))

/-- The row coordinate of the left operand's index is the output's row. -/
theorem dot_lhs0 (i : S1024x2048.Idx) (k : dot_S1024x64_S2048x64_S1024x2048_1_1_0_0_n_n.contr.Idx) : (dot_S1024x64_S2048x64_S1024x2048_1_1_0_0_n_n.lhsIdx i k 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
/-- The row coordinate of the right operand's index is the output's column. -/
theorem dot_rhs0 (i : S1024x2048.Idx) (k : dot_S1024x64_S2048x64_S1024x2048_1_1_0_0_n_n.contr.Idx) : (dot_S1024x64_S2048x64_S1024x2048_1_1_0_0_n_n.rhsIdx i k 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl

/-- The product of the 1024 source rows with the 2048 target rows, over the 64 coordinates, into the zero
    accumulator, read at (p, q): the sum over the coordinates of the products. -/
theorem dot_apply (a : FVec Ideal S1024x64 .bf16) (b : FVec Ideal S2048x64 .bf16) (p : Fin 1024) (q : Fin 2048) :
    matmul (F := Ideal) dot_S1024x64_S2048x64_S1024x2048_1_1_0_0_n_n none a b (constant S1024x2048 .f32 0x00000000#32) (ix2 p q)
      = ∑ d : Fin 64, a (ix2 p d) * b (ix2 q d) := by
  refine (Ideal.matmul_constant_zero_apply dot_S1024x64_S2048x64_S1024x2048_1_1_0_0_n_n none a b (ix2 p q)).trans ?_
  rw [← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 p q) ((contrEquiv1 dot_S1024x64_S2048x64_S1024x2048_1_1_0_0_n_n 64 rfl rfl).symm k) = ix2 p k :=
    funext fun c => Fin.ext (by
      match c with
      | ⟨0, _⟩ => exact dot_lhs0 _ _
      | ⟨1, _⟩ => exact (dot_S1024x64_S2048x64_S1024x2048_1_1_0_0_n_n.lhsIdx_val_of_single rfl _ _).trans hk)
  have er : dot_S1024x64_S2048x64_S1024x2048_1_1_0_0_n_n.rhsIdx (ix2 p q) ((contrEquiv1 dot_S1024x64_S2048x64_S1024x2048_1_1_0_0_n_n 64 rfl rfl).symm k) = ix2 q k :=
    funext fun c => Fin.ext (by
      match c with
      | ⟨0, _⟩ => exact dot_rhs0 _ _
      | ⟨1, _⟩ => exact (dot_S1024x64_S2048x64_S1024x2048_1_1_0_0_n_n.rhsIdx_val_of_single rfl _ _).trans hk)
  rw [el, er]

/-- The tile minimum at (p, 0): the minimum over the 2048 target rows q of the sum over the 64 coordinates of
    x[p,d] · (−2 · y[q,d]), plus shift[q]. -/
theorem pay1_apply (v0 : Vec Ideal S1024x64 .f32) (v1 : Vec Ideal S2048x64 .f32) (v2 : Vec Ideal S2048 .f32) (p : Fin 1024) :
    k0_pay1 (F := Ideal) v0 v1 v2 (ix2 p 0)
      = Finset.univ.inf fun q : Fin 2048 =>
          (∑ d : Fin 64, v0 (ix2 p d) * (Cert.MinCost.negTwo * v1 (ix2 q d))) + v2 (ix1 q) := by
  unfold k0_pay1
  refine (shapeCast_col_apply _ shapeCasts_S1024_S1024x1 p 0).trans ?_
  refine (rowMin_apply _ p).trans ?_
  refine congrArg (Finset.univ.inf) (funext fun q => ?_)
  refine (addf_apply _ _ _).trans ?_
  refine congr (congrArg HAdd.hAdd ?_) ?_
  · refine (dot_apply _ _ p q).trans ?_
    rfl
  · refine (broadcastTo_1b_ab_apply _ broadcasts_S1x2048_S1024x2048 p q).trans ?_
    refine (shapeCast_a_1a_apply _ shapeCasts_S2048_S1x2048 0 q).trans ?_
    rw [shapeCast_self]

end Cert.KernelIdeal.Pay

end
-- ==== Proof.HostAt.lean ====
/-
  Two host-side values read at an index, at the ideal (extended-real) values.

  Before the kernel runs, the host computes shift[m] = ‖y_m‖² − ψ_m: the sum over the 64 coordinates of the
  squares of row m (a sum started from the word of zero) less the potential at m.  After it, the host views the
  [8192, 1] column of results as the vector [8192]: entry n of the vector is entry (n, 0) of the column.
-/
import proofs.«127365_j48215302865480_2_alg».proof.Proof.Gen.KernelIdeal
import proofs.«127365_j48215302865480_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostAt

open Idealize.ShloMosaic Idealize.ShloMosaic.ValueIdx Cert.KernelIdeal Cert.KernelIdeal.Gen
open scoped BigOperators

/-- The sum of squares along a target row, started from the word of zero, less the potential, read at m:
    ‖y_m‖² − ψ_m. -/
theorem shift_apply (y : Vec Ideal S32768x64 .f32) (psi : Vec Ideal S32768 .f32) (m : Fin 32768) :
    subf (F := Ideal) (φ := .f32) (Host.reduceAdd (mulf (F := Ideal) (φ := .f32) y y) (constant (F := Ideal) S_ .f32 0x00000000#32) reducesTo_S32768x64_S32768_d1 h_S_) psi (ix1 m)
      = Cert.MinCost.sqy y m - psi (ix1 m) := by
  refine (subf_apply _ _ _).trans ?_
  refine congrArg (· - psi (ix1 m)) ?_
  generalize hy : mulf (F := Ideal) (φ := .f32) y y = y2
  simp only [Host.reduceAdd, Ideal.hostReduceAdd_def]
  rw [Ideal.hostReduceAdd_single reducesTo_S32768x64_S32768_d1 (by decide)]
  show Ideal.ofBits .f32 0x00000000#32 + _ = _
  rw [Ideal.ofBits_zero_f32, zero_add]
  unfold Cert.MinCost.sqy
  refine Finset.sum_congr rfl fun d _ => ?_
  subst hy
  refine (mulf_apply _ _ _).trans ?_
  exact congrArg (fun i => y i * y i) (funext fun a => Fin.ext (by match a with | ⟨0, _⟩ => rfl | ⟨1, _⟩ => rfl))

/-- The [8192, 1] column viewed as the vector [8192]: entry n is the column's entry (n, 0). -/
theorem column_apply {α : Type} (v : S8192x1.Idx → α) (n : Fin 8192) :
    shapeCast S8192 v shapeCasts_S8192x1_S8192 (ix1 n) = v (ix2 n 0) :=
  shapeCast_apply v shapeCasts_S8192x1_S8192 _ _ (by
    rw [Shape.rowMajor_val_two, Shape.rowMajor_val_one]
    show n.val * 1 + 0 = n.val
    rw [Nat.mul_one, Nat.add_zero])

end Cert.KernelIdeal.HostAt

end
-- ==== Proof.BlocksAt.lean ====
/-
  The arrays as the kernel finds them, read at an index, at the ideal (extended-real) values.

  The grid has 8 × 16 = 128 points; point t works on row tile t / 16 (1024 source rows) and target tile t % 16
  (2048 target rows).  The block of the source rows at point t is rows (t / 16) · 1024 … of the first argument;
  the block of the target rows is rows (t % 16) · 2048 … of the second; the block of the shift vector is entries
  (t % 16) · 2048 … of the vector the host computed before the kernel ran, whose entry k is ‖y_k‖² − ψ_k.
-/
import proofs.«127365_j48215302865480_2_alg».proof.Proof.Gen.KernelIdeal.Frame
import proofs.«127365_j48215302865480_2_alg».proof.Proof.Spec
import proofs.«127365_j48215302865480_2_alg».proof.Proof.HostAt
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic
import Idealize.ShloMosaic.PureOps.Ideal.Laws

noncomputable section

namespace Cert.KernelIdeal.Blocks

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (c : Dev nD)

/-- The block indices of the three input windows, decided once over the 128 grid points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 1) = t.val % 16 :=
  (by decide +kernel : ∀ t : Fin grid0.N, _)

/-- The vector the host computes before the kernel runs: row sums of squares of the second argument less the third. -/
theorem V_main_v2 :
    (Gen.V m c main_v2 : S32768.Idx → EReal)
      = subf (F := Ideal) (φ := .f32)
          (Host.reduceAdd (mulf (F := Ideal) (φ := .f32) (m ((c : Thread nD τ).loc main_arg1)) (m ((c : Thread nD τ).loc main_arg1)))
            (constant (F := Ideal) S_ .f32 0x00000000#32) reducesTo_S32768x64_S32768_d1 h_S_)
          (m ((c : Thread nD τ).loc main_arg2)) := by
  show StableHlo.after hostOps0 (fun b => m (c, b)) (Proc.devRef .tc main_v2) = _
  after_results

/-- Its entry k is ‖y_k‖² − ψ_k. -/
theorem V_main_v2_apply (k : Fin 32768) :
    (Gen.V m c main_v2 : S32768.Idx → EReal) (ix1 k)
      = Cert.MinCost.sqy (m ((c : Thread nD τ).loc main_arg1)) k - (m ((c : Thread nD τ).loc main_arg2) : S32768.Idx → EReal) (ix1 k) := by
  rw [V_main_v2]
  exact Cert.KernelIdeal.HostAt.shift_apply _ _ k

/-- The source rows' block at point t, at (p, d): row (t / 16) · 1024 + p of the first argument, coordinate d. -/
theorem blk0_apply (t : Fin cfg0.N) (p : Fin 1024) (d : Fin 64) :
    (Gen.iblk m c 0 t : S1024x64.Idx → EReal) (ix2 p d)
      = (Gen.V m c main_arg0 : S8192x64.Idx → EReal)
          (ix2 (⟨(t.val / 16) * 1024 + p.val, by have := t.isLt; have hN : cfg0.N = 128 := N_0; have := p.isLt; omega⟩ : Fin 8192) d) := by
  obtain ⟨e0, e1, -, -, -⟩ := idx_facts t
  unfold Gen.iblk
  rw [View.read_apply]
  show V m c main_arg0 _ = V m c main_arg0 _
  refine congrArg (V m c main_arg0) (funext fun a => Fin.ext ?_)
  match a with
  | ⟨0, _⟩ => show win0_0.index t (0 : Fin 2) * 1024 + 1 * p.val = (t.val / 16) * 1024 + p.val; rw [e0]; omega
  | ⟨1, _⟩ => show win0_0.index t (1 : Fin 2) * 64 + 1 * d.val = d.val; rw [e1]; omega

/-- The target rows' block at point t, at (q, d): row (t % 16) · 2048 + q of the second argument, coordinate d. -/
theorem blk1_apply (t : Fin cfg0.N) (q : Fin 2048) (d : Fin 64) :
    (Gen.iblk m c 1 t : S2048x64.Idx → EReal) (ix2 q d)
      = (Gen.V m c main_arg1 : S32768x64.Idx → EReal)
          (ix2 (⟨(t.val % 16) * 2048 + q.val, by have := q.isLt; omega⟩ : Fin 32768) d) := by
  obtain ⟨-, -, e0, e1, -⟩ := idx_facts t
  unfold Gen.iblk
  rw [View.read_apply]
  show V m c main_arg1 _ = V m c main_arg1 _
  refine congrArg (V m c main_arg1) (funext fun a => Fin.ext ?_)
  match a with
  | ⟨0, _⟩ => show win0_1.index t (0 : Fin 2) * 2048 + 1 * q.val = (t.val % 16) * 2048 + q.val; rw [e0]; omega
  | ⟨1, _⟩ => show win0_1.index t (1 : Fin 2) * 64 + 1 * d.val = d.val; rw [e1]; omega

/-- The shift vector's block at point t, at q: entry (t % 16) · 2048 + q of the vector the host computed. -/
theorem blk2_apply (t : Fin cfg0.N) (q : Fin 2048) :
    (Gen.iblk m c 2 t : S2048.Idx → EReal) (ix1 q)
      = (Gen.V m c main_v2 : S32768.Idx → EReal)
          (ix1 (⟨(t.val % 16) * 2048 + q.val, by have := q.isLt; omega⟩ : Fin 32768)) := by
  obtain ⟨-, -, -, -, e0⟩ := idx_facts t
  unfold Gen.iblk
  rw [View.read_apply]
  show V m c main_v2 _ = V m c main_v2 _
  refine congrArg (V m c main_v2) (funext fun a => Fin.ext ?_)
  match a with
  | ⟨0, _⟩ => show win0_2.index t (0 : Fin 1) * 2048 + 1 * q.val = (t.val % 16) * 2048 + q.val; rw [e0]; omega

end Cert.KernelIdeal.Blocks

end
-- ==== Proof.LibRunningMin.lean ====
/-
  The running minimum.  A sequence of extended reals that starts at the first term of a family and at each step
  takes the smaller of its previous value and the next term is, after k steps, the minimum of the first k + 1
  terms.  This is what an accumulator carried from one grid point to the next holds when the first point stores
  a term and every later point lowers the stored value by the next term: after the last of N + 1 points it is
  the minimum of all N + 1 terms, in whatever order they are taken.
-/
import Idealize.ShloMosaic.PureOps.Ideal

noncomputable section

namespace Cert.RunningMin

/-- The minimum over the naturals below n is the minimum over the n-element index type. -/
theorem inf_range_eq_inf_univ (n : ℕ) (a : ℕ → EReal) :
    (Finset.range n).inf a = Finset.univ.inf fun j : Fin n => a j.val := by
  apply le_antisymm
  · exact Finset.le_inf fun j _ => Finset.inf_le (Finset.mem_range.2 j.isLt)
  · refine Finset.le_inf fun i hi => ?_
    exact Finset.inf_le (f := fun j : Fin n => a j.val) (Finset.mem_univ (⟨i, Finset.mem_range.1 hi⟩ : Fin n))

/-- While the step rule holds (for the steps below N), the running minimum after k ≤ N steps is the minimum
    of the first k + 1 terms. -/
theorem running_min_bdd (a s : ℕ → EReal) (N : ℕ) (h0 : s 0 = a 0)
    (hs : ∀ j, j < N → s (j + 1) = min (s j) (a (j + 1))) (k : ℕ) (hk : k ≤ N) :
    s k = (Finset.range (k + 1)).inf a := by
  induction k with
  | zero => rw [h0, Finset.range_one, Finset.inf_singleton]
  | succ k ih =>
    rw [hs k (by omega), ih (by omega), Finset.range_add_one (n := k + 1), Finset.inf_insert, inf_comm]

/-- With the step rule at every step, the running minimum after k steps is the minimum of the first k + 1 terms. -/
theorem running_min (a s : ℕ → EReal) (h0 : s 0 = a 0) (hs : ∀ j, s (j + 1) = min (s j) (a (j + 1))) (k : ℕ) :
    s k = (Finset.range (k + 1)).inf a :=
  running_min_bdd a s k h0 (fun j _ => hs j) k le_rfl

/-- N + 1 terms: with the step rule at the N steps, the running minimum ends at the minimum of all N + 1 terms. -/
theorem running_min_fin (a s : ℕ → EReal) (N : ℕ) (h0 : s 0 = a 0)
    (hs : ∀ j, j < N → s (j + 1) = min (s j) (a (j + 1))) :
    s N = Finset.univ.inf fun j : Fin (N + 1) => a j.val := by
  rw [running_min_bdd a s N h0 hs N le_rfl]
  exact inf_range_eq_inf_univ (N + 1) a

/-- Sixteen terms: with the step rule at the fifteen steps, the running minimum ends at the minimum of all sixteen. -/
theorem running_min_16 (a s : ℕ → EReal) (h0 : s 0 = a 0)
    (hs : ∀ j, j < 15 → s (j + 1) = min (s j) (a (j + 1))) :
    s 15 = Finset.univ.inf fun j : Fin 16 => a j.val :=
  running_min_fin a s 15 h0 hs

end Cert.RunningMin

end
-- ==== Proof.OutValue.lean ====
/-
  The value of the output block.  At a grid point of the last target tile of its row tile, the block the kernel
  stores holds, at row p, the block-by-block minimum of the cost without the squared norm of the source row,
  plus that squared norm.

  The scratch starts, at the first target tile of the row tile, at that tile's row minima, and at each later tile
  takes the smaller of what it held and the tile's row minima: a running minimum over the sixteen target tiles.
  The row minimum of tile j at row p is the minimum over the tile's 2048 target rows q of the cost of the pair
  (source row, row q of block j), the blocks being read off the argument arrays and the shift vector off the
  second and third arguments.  The final value adds the sum of the squares of the source row.
-/
import proofs.«127365_j48215302865480_2_alg».proof.Proof.KernelIdeal.Data
import proofs.«127365_j48215302865480_2_alg».proof.Proof.PayloadAt
import proofs.«127365_j48215302865480_2_alg».proof.Proof.HostAt
import proofs.«127365_j48215302865480_2_alg».proof.Proof.BlocksAt
import proofs.«127365_j48215302865480_2_alg».proof.Proof.LibRunningMin
import proofs.«127365_j48215302865480_2_alg».proof.Proof.Spec

set_option maxRecDepth 16384

noncomputable section

namespace Cert.KernelIdeal.Out

open Idealize.ShloMosaic Idealize.ShloMosaic.TcCoe Idealize.ShloMosaic.ValueIdx Idealize.SL.Sem
open Cert.KernelIdeal Cert.KernelIdeal.Gen Cert.KernelIdeal.Body Cert.MinCost Cert.RunningMin
open scoped BigOperators

variable (m : (ℓ : Loc nD τ sig) → Buf (Elt Ideal) ℓ) (c : Dev nD)

/-- The scratch after a point does not depend on how the point's number is written. -/
theorem scrAt_congr (n n' : ℕ) (e : n = n') (h : n < cfg0.N) (h' : n' < cfg0.N) :
    scrAt (F := Ideal) m c n h = scrAt (F := Ideal) m c n' h' := by
  subst e; rfl

/-- The row minimum of the tile of point t at row p: with r the point's row tile and j its target tile, the
    minimum over the tile's 2048 target rows of the cost without the squared norm of source row r · 1024 + p. -/
theorem tile_min (t : Fin cfg0.N) (p : Fin 1024) (r j : ℕ) (hr : t.val / 16 = r) (hj : t.val % 16 = j)
    (hb : r * 1024 + p.val < 8192) :
    k0_pay1 (F := Ideal) (iblk m c 0 t) (iblk m c 1 t) (iblk m c 2 t) (ix2 p 0)
      = Finset.univ.inf fun q : Fin 2048 =>
          kcost (m ((c : Thread nD τ).loc main_arg0)) (m ((c : Thread nD τ).loc main_arg1)) (m ((c : Thread nD τ).loc main_arg2))
            ⟨r * 1024 + p.val, hb⟩ ⟨(j % 16) * 2048 + q.val, by have := q.isLt; omega⟩ := by
  subst hr hj
  refine (Pay.pay1_apply _ _ _ p).trans ?_
  refine congrArg (Finset.univ.inf) (funext fun q => ?_)
  unfold kcost
  refine congr (congrArg HAdd.hAdd (Finset.sum_congr rfl fun d _ => ?_)) ?_
  · rw [Blocks.blk0_apply, Blocks.blk1_apply, V_main_arg0, V_main_arg1]
    refine congrArg (fun k : Fin 32768 => _ * (negTwo * (m ((c : Thread nD τ).loc main_arg1) : S32768x64.Idx → EReal) (ix2 k d))) (Fin.ext ?_)
    show t.val % 16 * 2048 + q.val = t.val % 16 % 16 * 2048 + q.val
    rw [Nat.mod_mod]
  · rw [Blocks.blk2_apply, Blocks.V_main_v2_apply]
    refine congrArg (fun k : Fin 32768 => sqy (m ((c : Thread nD τ).loc main_arg1)) k - (m ((c : Thread nD τ).loc main_arg2) : S32768.Idx → EReal) (ix1 k)) (Fin.ext ?_)
    show t.val % 16 * 2048 + q.val = t.val % 16 % 16 * 2048 + q.val
    rw [Nat.mod_mod]

/-- What the scratch holds at row p after the point j places past point base (+∞ past the grid's end). -/
def sSeq (base : ℕ) (p : Fin 1024) (j : ℕ) : EReal :=
  if h : base + j < cfg0.N then scrAt (F := Ideal) m c (base + j) h (ix2 p 0) else ⊤

theorem sSeq_of_lt (base : ℕ) (p : Fin 1024) (j : ℕ) (h : base + j < cfg0.N) :
    sSeq m c base p j = scrAt (F := Ideal) m c (base + j) h (ix2 p 0) := dif_pos h

/-- At a point of the last target tile, the scratch holds at row p the minimum over the sixteen blocks of the
    minimum inside each block of the cost without the squared norm of the source row. -/
theorem scr_value (t : Fin cfg0.N) (h15 : t.val % 16 = 15) (p : Fin 1024)
    (hb : (t.val / 16) * 1024 + p.val < 8192) :
    scrAt (F := Ideal) m c t.val t.isLt (ix2 p 0)
      = Finset.univ.inf fun j : Fin 16 => Finset.univ.inf fun q : Fin 2048 =>
          kcost (m ((c : Thread nD τ).loc main_arg0)) (m ((c : Thread nD τ).loc main_arg1)) (m ((c : Thread nD τ).loc main_arg2))
            ⟨(t.val / 16) * 1024 + p.val, hb⟩ (tgt j q) := by
  have hN : cfg0.N = 128 := N_0
  have htl := t.isLt
  -- the first point of the row tile
  obtain ⟨base, hbase⟩ : ∃ base, base = t.val - 15 := ⟨_, rfl⟩
  have hlt : ∀ j, j ≤ 15 → base + j < cfg0.N := fun j hj => by omega
  -- the row minimum of target tile j
  let a : ℕ → EReal := fun j => Finset.univ.inf fun q : Fin 2048 =>
    kcost (m ((c : Thread nD τ).loc main_arg0)) (m ((c : Thread nD τ).loc main_arg1)) (m ((c : Thread nD τ).loc main_arg2))
      ⟨(t.val / 16) * 1024 + p.val, hb⟩ ⟨(j % 16) * 2048 + q.val, by have := q.isLt; omega⟩
  have htile : ∀ j (hj : j ≤ 15),
      k0_pay1 (F := Ideal) (iblk m c 0 ⟨base + j, hlt j hj⟩) (iblk m c 1 ⟨base + j, hlt j hj⟩) (iblk m c 2 ⟨base + j, hlt j hj⟩) (ix2 p 0) = a j :=
    fun j hj => tile_min m c ⟨base + j, hlt j hj⟩ p (t.val / 16) j (by show (base + j) / 16 = t.val / 16; omega)
      (by show (base + j) % 16 = j; omega) hb
  have h0 : sSeq m c base p 0 = a 0 := by
    rw [sSeq_of_lt m c base p 0 (hlt 0 (by omega))]
    refine (congrFun (scrAt_first m c ⟨base + 0, hlt 0 (by omega)⟩ (by show (base + 0) % 16 = 0; omega)) (ix2 p 0)).trans ?_
    refine (congrFun (Pay.pay2_eq _ _ _) (ix2 p 0)).trans ?_
    exact htile 0 (by omega)
  have hs : ∀ j, j < 15 → sSeq m c base p (j + 1) = min (sSeq m c base p j) (a (j + 1)) := fun j hj => by
    rw [sSeq_of_lt m c base p (j + 1) (hlt (j + 1) (by omega)), sSeq_of_lt m c base p j (hlt j (by omega))]
    refine (congrFun (scrAt_later m c ⟨base + (j + 1), hlt (j + 1) (by omega)⟩ (by show (base + (j + 1)) % 16 ≠ 0; omega)) (ix2 p 0)).trans ?_
    refine (Pay.pay3_apply _ _ _ _ p).trans ?_
    refine congr (congrArg min ?_) (htile (j + 1) (by omega))
    exact congrFun (scrAt_congr m c _ _ (by show base + (j + 1) - 1 = base + j; omega) _ _) (ix2 p 0)
  have key := running_min_16 a (sSeq m c base p) h0 hs
  rw [sSeq_of_lt m c base p 15 (hlt 15 le_rfl)] at key
  refine (congrFun (scrAt_congr m c _ _ (by omega) _ _) (ix2 p 0)).trans (key.trans ?_)
  refine congrArg (Finset.univ.inf) (funext fun j => congrArg (Finset.univ.inf) (funext fun q => ?_))
  refine congrArg (kcost _ _ _ _) (Fin.ext ?_)
  show j.val % 16 * 2048 + q.val = j.val * 2048 + q.val
  rw [Nat.mod_eq_of_lt j.isLt]

/-- At a point of the last target tile, the stored block holds at row p the block-by-block minimum of the cost
    without the squared norm of the source row, plus that squared norm. -/
theorem outAt_value (t : Fin cfg0.N) (h15 : t.val % 16 = 15) (p : Fin 1024) :
    outAt (F := Ideal) m c t (ix2 p 0)
      = kmin (m ((c : Thread nD τ).loc main_arg0)) (m ((c : Thread nD τ).loc main_arg1)) (m ((c : Thread nD τ).loc main_arg2))
          ⟨(t.val / 16) * 1024 + p.val, by have := t.isLt; have : cfg0.N = 128 := N_0; have := p.isLt; omega⟩ := by
  unfold outAt
  refine (Pay.pay4_apply _ _ p).trans ?_
  unfold kmin
  refine congr (congrArg HAdd.hAdd (scr_value m c t h15 p _)) ?_
  unfold sqx
  refine Finset.sum_congr rfl fun d _ => ?_
  rw [Blocks.blk0_apply, V_main_arg0]

end Cert.KernelIdeal.Out

end
-- ==== Proof.Consts.lean ====
/-
  The float constants the two programs spell, as the extended reals their words denote: −2, 2 and +∞.
  Stated once, so that the modules that meet them read them here.
-/
import proofs.«127365_j48215302865480_2_alg».proof.Proof.Spec

noncomputable section

namespace Cert.MinCost

open Idealize.ShloMosaic

/-- The word of −2.0 denotes the real −2. -/
theorem negTwo_eq : negTwo = ((-2 : ℝ) : EReal) := by
  unfold negTwo
  simp [Ideal.ofBits, Ideal.ieee, -EReal.coe_mul]; norm_num

/-- The word of 2.0 denotes the real 2. -/
theorem two_eq : two = ((2 : ℝ) : EReal) := by
  unfold two
  simp [Ideal.ofBits, Ideal.ieee, -EReal.coe_mul]; norm_num

/-- The word 0x7F800000 denotes +∞. -/
theorem ofBits_inf : Ideal.ofBits .f32 0x7F800000#32 = (⊤ : EReal) := by
  simp [Ideal.ofBits, Ideal.ieee]

end Cert.MinCost

end
-- ==== Proof.RefMin.lean ====
/-
  What the one-pass program computes before it adds the mean of ψ: at source row n, the minimum over all
  target rows m of the whole cost of the pair (n, m).

  The minimum is a fold by "the smaller of two" from +∞ over the 32768 coordinates of the dropped axis, which is
  the infimum of the family over that axis; the element folded at m is read one operation at a time down to the
  three argument arrays: the two squared norms are sums over the 64 coordinates started from zero, the inner
  product is a sum over the 64 coordinates, and the constant word is 2.
-/
import proofs.«127365_j48215302865480_2_alg».proof.Proof.Consts
import proofs.«127365_j48215302865480_2_alg».proof.Proof.Gen.ReferenceIdeal.Read

noncomputable section

namespace Cert.MinCost.Ref

open Cert.ReferenceIdeal Cert.ReferenceIdeal.Gen Cert.ReferenceIdeal.Read
open Idealize.ShloMosaic Idealize.ShloMosaic.ValueIdx
open scoped BigOperators

/-- A fold by "the smaller of two" from +∞ is the infimum of the family. -/
theorem fold_minimumf_top {ι : Type} (s : Finset ι) (f : ι → EReal) :
    s.fold (FloatOps.minimumf (F := Ideal) (φ := .f32)) (⊤ : EReal) f = s.inf f := by
  classical
  induction s using Finset.induction_on with
  | empty => rw [Finset.fold_empty, Finset.inf_empty]
  | insert a s ha ih => rw [Finset.fold_insert ha, Finset.inf_insert, ih]; rfl

/-- The reduced axis is axis 1 of the 8192 × 32768 array of costs. -/
theorem reduces_d1 : S8192x32768.Reduces [(1 : Fin S8192x32768.rank)] S8192 := by decide

/-- The source index over result index n with m inserted on the dropped axis is (n, m). -/
theorem lift_eq (n : Fin 8192) (m : Fin 32768) :
    reduces_d1.lift (ix1 n) m = (ix2 n m : S8192x32768.Idx) :=
  funext fun a => Fin.ext (by match a with | ⟨0, _⟩ => rfl | ⟨1, _⟩ => rfl)

theorem idx_sqx (n : Fin 8192) (m : Fin 32768) (d : Fin 64) :
    idx_main_v1 (idx_main_v2 (idx_main_v6 (ix2 n m))) d = (ix2 n d : S8192x64.Idx) :=
  funext fun a => Fin.ext (by match a with | ⟨0, _⟩ => rfl | ⟨1, _⟩ => rfl)

theorem idx_sqy (n : Fin 8192) (m : Fin 32768) (d : Fin 64) :
    idx_main_v4 (idx_main_v5 (idx_main_v7 (ix2 n m))) d = (ix2 m d : S32768x64.Idx) :=
  funext fun a => Fin.ext (by match a with | ⟨0, _⟩ => rfl | ⟨1, _⟩ => rfl)

theorem idx_dot_l (n : Fin 8192) (m : Fin 32768) (d : Fin 64) :
    lidx_main_v9 (ix2 n m) d = (ix2 n d : S8192x64.Idx) :=
  funext fun a => Fin.ext (by match a with | ⟨0, _⟩ => rfl | ⟨1, _⟩ => rfl)

theorem idx_dot_r (n : Fin 8192) (m : Fin 32768) (d : Fin 64) :
    ridx_main_v9 (ix2 n m) d = (ix2 m d : S32768x64.Idx) :=
  funext fun a => Fin.ext (by match a with | ⟨0, _⟩ => rfl | ⟨1, _⟩ => rfl)

theorem idx_psi (n : Fin 8192) (m : Fin 32768) :
    idx_main_v13 (idx_main_v14 (ix2 n m)) = (ix1 m : S32768.Idx) :=
  funext fun a => Fin.ext (by match a with | ⟨0, _⟩ => rfl)

/-- The element the minimum folds at (n, m) is the whole cost of the pair. -/
theorem cost_apply (x0 : (⟨S8192x64, .f32⟩ : BufTy).Contents (Elt Ideal))
    (x1 : (⟨S32768x64, .f32⟩ : BufTy).Contents (Elt Ideal)) (x2 : (⟨S32768, .f32⟩ : BufTy).Contents (Elt Ideal))
    (n : Fin 8192) (m : Fin 32768) :
    val_main_v15 (F := Ideal) x0 x1 x2 (ix2 n m) = rcost x0 x1 x2 n m := by
  rw [val_main_v15_apply, val_main_v12_apply, val_main_v8_apply, val_main_v6_apply, val_main_v2_apply,
    val_main_v1_apply, val_main_v7_apply, val_main_v5_apply, val_main_v4_apply, val_main_v11_apply,
    val_main_v10_apply, val_main_v9_apply, val_main_v14_apply, val_main_v13_apply,
    val_main_cst_apply, val_main_cst_0_apply, val_main_cst_1_apply]
  simp only [val_main_v0_apply, val_main_v3_apply, idx_sqx, idx_sqy, idx_dot_l, idx_dot_r, idx_psi,
    Ideal.ofBits_def, Ideal.ofBits_zero_f32, zero_add, Ideal.mulf_def, Ideal.addf_def, Ideal.subf_def]
  rfl

/-- At source row n the one-pass program's minimum is the minimum over all target rows of the whole cost. -/
theorem ref_min_apply (x0 : (⟨S8192x64, .f32⟩ : BufTy).Contents (Elt Ideal))
    (x1 : (⟨S32768x64, .f32⟩ : BufTy).Contents (Elt Ideal)) (x2 : (⟨S32768, .f32⟩ : BufTy).Contents (Elt Ideal))
    (n : Fin 8192) :
    val_main_v16 (F := Ideal) x0 x1 x2 (ix1 n) = rmin x0 x1 x2 n := by
  unfold val_main_v16
  rw [Host.reduce_eq_fold_single FloatOps.minimumf _ _ reducesTo_S8192x32768_S8192_d1 reduces_d1 h_S_ (ix1 n),
    val_main_cst_2_apply, Ideal.ofBits_def, Cert.MinCost.ofBits_inf, fold_minimumf_top]
  unfold rmin
  refine congrArg (Finset.inf Finset.univ) (funext fun (m : Fin 32768) => ?_)
  exact (congrArg (val_main_v15 (F := Ideal) x0 x1 x2) (lift_eq n m)).trans (cost_apply x0 x1 x2 n m)

end Cert.MinCost.Ref

end
-- ==== Proof.MinAlgebra.lean ====
/-
  The real-number algebra behind the agreement of the two programs on finite inputs.

  With every entry of the three arrays a real number, the whole cost of a pair (n, m) is the cost without
  ‖x_n‖² plus ‖x_n‖²: the factor −2 moves out of the inner product (a real factor moves through a finite sum),
  and what is left is a rearrangement of a sum of reals.  A real constant moves out of a minimum over a finite
  family (adding a real is monotone and keeps +∞), and a minimum over the 32768 target rows is the minimum over
  the 16 blocks of the minimum inside each block, since every target row m is row m mod 2048 of block m / 2048.
-/
import proofs.«127365_j48215302865480_2_alg».proof.Proof.Consts

noncomputable section

namespace Cert.MinCost

open Idealize.ShloMosaic Idealize.ShloMosaic.ValueIdx
open scoped BigOperators

/-- The coercion of a finite sum of reals is the sum of the coercions. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real entries the whole cost of a pair is the cost without ‖x_n‖², plus ‖x_n‖². -/
theorem rcost_eq_kcost_add (xr : XS.Idx → ℝ) (yr : YS.Idx → ℝ) (pr : PS.Idx → ℝ) (n : Fin 8192) (m : Fin 32768) :
    rcost (fun i => (xr i : EReal)) (fun i => (yr i : EReal)) (fun i => (pr i : EReal)) n m
      = kcost (fun i => (xr i : EReal)) (fun i => (yr i : EReal)) (fun i => (pr i : EReal)) n m
        + sqx (fun i => (xr i : EReal)) n := by
  unfold rcost kcost sqx sqy
  rw [negTwo_eq, two_eq]
  simp only [← EReal.coe_mul, ← coe_sum_real, ← EReal.coe_add, ← EReal.coe_sub]
  congr 1
  have h : ∑ d : Fin 64, xr (ix2 n d) * (-2 * yr (ix2 m d)) = -2 * ∑ d : Fin 64, xr (ix2 n d) * yr (ix2 m d) := by
    rw [Finset.mul_sum]
    exact Finset.sum_congr rfl fun d _ => by ring
  rw [h]
  ring

/-- Every target row is a row of a block. -/
theorem tgt_div_mod (m : Fin 32768) :
    tgt ⟨m.val / 2048, by omega⟩ ⟨m.val % 2048, by omega⟩ = m := by
  apply Fin.ext
  show m.val / 2048 * 2048 + m.val % 2048 = m.val
  omega

/-- A minimum over all target rows is the minimum over the blocks of the minimum inside each block. -/
theorem inf_blocks (f : Fin 32768 → EReal) :
    (Finset.univ.inf fun m : Fin 32768 => f m)
      = Finset.univ.inf fun j : Fin 16 => Finset.univ.inf fun q : Fin 2048 => f (tgt j q) := by
  apply le_antisymm
  · exact Finset.le_inf fun j _ => Finset.le_inf fun q _ => Finset.inf_le (Finset.mem_univ _)
  · refine Finset.le_inf fun m _ => ?_
    rw [← tgt_div_mod m]
    exact le_trans (Finset.inf_le (Finset.mem_univ (⟨m.val / 2048, by omega⟩ : Fin 16)))
      (Finset.inf_le (Finset.mem_univ (⟨m.val % 2048, by omega⟩ : Fin 2048)))

/-- A real constant moves out of a minimum over a finite family. -/
theorem inf_add_real {ι : Type} (s : Finset ι) (f : ι → EReal) (c : ℝ) :
    (s.inf fun i => f i + (c : EReal)) = s.inf f + (c : EReal) := by
  have h := Finset.apply_inf_eq_inf_comp_of_linearOrder (s := s) (f := f) (fun t : EReal => t + (c : EReal))
    (fun a b hab => by exact add_le_add hab le_rfl) (EReal.top_add_coe c)
  exact h.symm

/-- On finite inputs the minimum of the whole cost at once is the block-by-block minimum of the cost without
    ‖x_n‖², with ‖x_n‖² added afterwards. -/
theorem rmin_eq_kmin (x : XS.Idx → EReal) (y : YS.Idx → EReal) (psi : PS.Idx → EReal)
    (hx : ∀ i, ∃ r : ℝ, x i = (r : EReal)) (hy : ∀ i, ∃ r : ℝ, y i = (r : EReal))
    (hp : ∀ i, ∃ r : ℝ, psi i = (r : EReal)) (n : Fin 8192) :
    rmin x y psi n = kmin x y psi n := by
  choose xr hxr using hx
  choose yr hyr using hy
  choose pr hpr using hp
  obtain rfl : x = fun i => (xr i : EReal) := funext hxr
  obtain rfl : y = fun i => (yr i : EReal) := funext hyr
  obtain rfl : psi = fun i => (pr i : EReal) := funext hpr
  unfold rmin kmin
  simp only [rcost_eq_kcost_add]
  have hs : sqx (fun i => (xr i : EReal)) n = ((∑ d : Fin 64, xr (ix2 n d) * xr (ix2 n d) : ℝ) : EReal) := by
    unfold sqx
    simp only [← EReal.coe_mul, ← coe_sum_real]
  rw [hs, inf_add_real, inf_blocks]

end Cert.MinCost

end
-- ==== Proof.FiniteInputs.lean ====
/-
  Finiteness of the inputs.  The precondition says, on every device, that the conjunction of three "all
  entries have absolute value below +∞" tests is true.  A conjunction of one-bit words is 1 only if both words
  are; a reduction by "and" into a single result is 1 only if every entry of its operand is; and an extended
  real whose absolute value max x (−x) lies strictly below +∞ is neither +∞ nor −∞, so it is a real number.
-/
import proofs.«127365_j48215302865480_2_alg».proof.Defs
import proofs.«127365_j48215302865480_2_alg».proof.Proof.Gen.Pre_finite_inputs
import proofs.«127365_j48215302865480_2_alg».proof.Proof.Consts
import Idealize.ShloMosaic.Lib.ReduceAll
import Idealize.ShloMosaic.Lib.ValueIdx
import Idealize.ShloMosaic.Lib.Pipeline.Value

noncomputable section

namespace Cert.MinCost.Finite

open Idealize.ShloMosaic Idealize.SL.Sem Idealize.ShloMosaic.ValueIdx
open Cert.Pre_finite_inputs Cert.Pre_finite_inputs.Gen

/-- The rank-0 shape has one index. -/
instance : Subsingleton S_.Idx := ⟨fun a b => funext fun d => d.elim0⟩

/-- An extended real whose absolute value is strictly below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element test "|x| < +∞" being true makes x a real number. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change BitVec.ofBool (decide (max x (-x) < Ideal.ofBits .f32 0x7F800000#32)) = 1#1 at h
  rw [Cert.MinCost.ofBits_inf] at h
  by_cases hlt : max x (-x) < (⊤ : EReal)
  · exact real_of_abs_lt_top x hlt
  · rw [decide_eq_false hlt] at h
    exact absurd h (by decide)

/-- An array all of whose entries pass the test, the test reduced by "and" into one word, has real entries. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ix0 = 1#1)
    (i : s.Idx) : ∃ r : ℝ, x i = (r : EReal) := by
  have h := Host.reduce_andi_all _ _ hr hu ix0 e i
  rw [cmpf_apply, broadcastInDim_apply _ hb _ i ix0 (fun a => a.elim0)] at h
  exact real_of_test (x i) h

/-- On every device each of the three argument arrays has only real entries. -/
theorem finite_args
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h := congrFun (hpre c) ix0
  dsimp only [Cert.Pre_finite_inputs.fn] at h
  obtain ⟨h01, h2⟩ := IntOp.andi_eq_one.1 h
  obtain ⟨h0, h1⟩ := IntOp.andi_eq_one.1 h01
  exact ⟨fun i => real_of_all _ _ _ _ h0 i, fun i => real_of_all _ _ _ _ h1 i, fun i => real_of_all _ _ _ _ h2 i⟩

end Cert.MinCost.Finite

end
-- ==== Proof.Bridge.lean ====
/-
  The two programs end with one value.

  The kernel's program: the output array of the call holds, at row `n`, the block-by-block minimum of the cost
  without ‖x_n‖², plus ‖x_n‖² (`kmin`); the host then reads the column as a vector and adds the mean of the
  potentials to every entry.  The reference: the minimum over all targets of the whole cost (`rmin`), plus the same
  mean, computed by the same operations.  On finite inputs `rmin = kmin` (a real constant moves out of a
  minimum; a real factor moves through a finite sum; the minimum over 32768 targets is the minimum over 16 blocks
  of the minima inside the blocks), so the two results are equal entry by entry.
-/
import proofs.«127365_j48215302865480_2_alg».proof.Proof.KernelIdeal.Final
import proofs.«127365_j48215302865480_2_alg».proof.Proof.TailAt
import proofs.«127365_j48215302865480_2_alg».proof.Proof.OutValue
import proofs.«127365_j48215302865480_2_alg».proof.Proof.RefMin
import proofs.«127365_j48215302865480_2_alg».proof.Proof.MinAlgebra
import proofs.«127365_j48215302865480_2_alg».proof.Proof.FiniteInputs
import proofs.«127365_j48215302865480_2_alg».proof.Proof.Gen.ReferenceIdeal.Run
import proofs.«127365_j48215302865480_2_alg».proof.Proof.Gen.ReferenceIdeal.Read

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)

variable (m : (ℓ : Loc nD τ sig) → Buf (Elt Ideal) ℓ) (ρ : Dev nD → PrngReg)

/-- The result of the kernel's program on core `c`: the call's output column as a vector, plus the mean of the potentials. -/
def result (c : Dev nD) : S8192.Idx → EReal :=
  addf (F := Ideal) (φ := .f32)
    (shapeCast S8192 (outArr (F := Ideal) m c : S8192x1.Idx → EReal) shapeCasts_S8192x1_S8192)
    (broadcastInDim S8192 ![] bcast_S_S8192
      (Host.divf (F := Ideal) (φ := .f32)
        (Host.reduceAdd (F := Ideal) (φ := .f32) (m ((c : Thread nD τ).loc main_arg2) : S32768.Idx → EReal)
          (constant (F := Ideal) S_ .f32 0x00000000#32) reducesTo_S32768_S_d0 h_S_)
        (constant (F := Ideal) S_ .f32 0x47000000#32)))

/-- The kernel's program runs, ends with `result` in its result buffer, and leaves its arguments as they were. -/
theorem kernel_run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h c).2 main_v8 (Pipeline.mem_restRefs_of main_v8 (by decide) (by decide))).trans
        ((Cert.KernelIdeal.Tail.tail_eq m c (dats m)).trans (by unfold result; rw [final3])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main (F := Ideal) m ρ)

/-- On finite inputs the reference's term of the same arguments is the kernel's result: the reference's minimum at row `n`
    is `rmin`, which is `kmin`, which is row `n` of the call's output column; the mean is added by the same operations. -/
theorem result_eq (hpre : Cert.Pre_KernelIdeal m) (c : Dev nD) :
    (Cert.ReferenceIdeal.Read.val_main_v20 (F := Ideal) (m ((c.tc : Thread nD τ).loc main_arg0)) (m ((c.tc : Thread nD τ).loc main_arg1))
      (m ((c.tc : Thread nD τ).loc main_arg2)) : S8192.Idx → EReal) = result m c := by
  obtain ⟨hx, hy, hp⟩ := Cert.MinCost.Finite.finite_args m hpre c
  have h16 : (Cert.ReferenceIdeal.Read.val_main_v16 (F := Ideal) (m ((c.tc : Thread nD τ).loc main_arg0)) (m ((c.tc : Thread nD τ).loc main_arg1))
      (m ((c.tc : Thread nD τ).loc main_arg2)) : S8192.Idx → EReal)
      = shapeCast S8192 (outArr (F := Ideal) m c : S8192x1.Idx → EReal) shapeCasts_S8192x1_S8192 := by
    funext i
    obtain ⟨n, rfl⟩ : ∃ n : Fin 8192, i = ix1 n := ⟨i 0, eq_ix1 i⟩
    rw [Cert.MinCost.Ref.ref_min_apply, Cert.MinCost.rmin_eq_kmin _ _ _ hx hy hp n, Cert.KernelIdeal.HostAt.column_apply]
    unfold outArr
    have h15 : (ptOf (ix2 n (0 : Fin 1))).val % 16 = 15 := by rw [ptOf_val]; omega
    rw [Cert.KernelIdeal.Out.outAt_value m c (ptOf (ix2 n (0 : Fin 1))) h15 (rowOf (ix2 n (0 : Fin 1)))]
    congr 1
    apply Fin.ext
    show n.val = ((ptOf (ix2 n (0 : Fin 1))).val / 16) * 1024 + (rowOf (ix2 n (0 : Fin 1))).val
    rw [ptOf_val, rowOf_val]
    show n.val = ((n.val / 1024 * 16 + 15) / 16) * 1024 + n.val % 1024
    omega
  unfold result
  rw [← h16]
  rfl

end Cert.Bridge

end
-- ==== Proof.lean ====
/-
  The certificate's five claims.

  Both kernel programs (the one read word by word and the one read at the extended reals) run to their end,
  fault nowhere and leave their arguments unchanged: the call's pipeline launches the body at each of the
  128 grid points; the body is run symbolically in its three cases (first, later, last target tile), the scratch
  carrying the running row minima between points.  The reference is straight-line host code and runs by
  itself.  The idealization rewrote nothing, so there is nothing to preserve.  And at the extended reals, on
  finite inputs, the two programs end with equal results: min over targets of (‖x‖² + ‖y‖² − 2⟨x,y⟩ − ψ), plus
  the mean of ψ.
-/
import proofs.«127365_j48215302865480_2_alg».proof.Defs
import proofs.«127365_j48215302865480_2_alg».proof.Proof.Gen.Kernel
import proofs.«127365_j48215302865480_2_alg».proof.Proof.Gen.KernelIdeal
import proofs.«127365_j48215302865480_2_alg».proof.Proof.Gen.ReferenceIdeal
import proofs.«127365_j48215302865480_2_alg».proof.Proof.Gen.Pre_finite_inputs
import proofs.«127365_j48215302865480_2_alg».proof.Proof.Gen.ReferenceIdeal.Run
import proofs.«127365_j48215302865480_2_alg».proof.Proof.Gen.ReferenceIdeal.Read
import proofs.«127365_j48215302865480_2_alg».proof.Proof.Kernel.Data
import proofs.«127365_j48215302865480_2_alg».proof.Proof.KernelIdeal.Data
import proofs.«127365_j48215302865480_2_alg».proof.Proof.Bridge

noncomputable section

namespace Cert.Proof

open Idealize.ShloMosaic Idealize.SL.Sem

theorem frame_kernel : Cert.frame_Kernel := fun m ρ _ => Cert.Kernel.Body.frame (F := Bits) m ρ

theorem frame_kernelIdeal : Cert.frame_KernelIdeal := fun m ρ _ => Cert.KernelIdeal.Body.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run; the kernel's ends with its result term, the reference's with
    its own term of the same arguments, and on finite inputs the two terms are equal. -/
theorem algebraic : Cert.algebraic_KernelIdeal_ReferenceIdeal := by
  intro m ρ m' ρ' hpre hagree
  refine ⟨fun c => Cert.Bridge.result m c, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2]
  exact Cert.Bridge.result_eq m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
